-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S1x16x2048x2048 : Shape := ⟨4, ![1, 16, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_

variable [Facts]

def fn_part1 {F : FTy → Type} [FloatOps F] (main_arg3 : FVec F S1x16x2048x2048 .f32) (main_v13 : IVec S_ 1) (main_v16 : IVec S1x16x2048x2048 1) : IVec S_ 1 :=
  let main_c_5 : IVec S_ 1 := constantI S_ 1 1#1
  let main_v17 : IVec S_ 1 := (fun x v => Host.reduce IntOp.andi x v reducesTo_S1x16x2048x2048_S_d0_1_2_3 h_S_) main_v16 main_c_5
  let main_v18 : IVec S_ 1 := andi main_v13 main_v17
  let main_v19 : IVec S1x16x2048x2048 32 := iotaInDim S1x16x2048x2048 32 2
  let main_v20 : IVec S1x16x2048x2048 32 := iotaInDim S1x16x2048x2048 32 3
  let main_v21 : IVec S1x16x2048x2048 1 := cmpi .sge main_v19 main_v20
  let main_cst_6 : FVec F S_ .f32 := constant S_ .f32 0x00000000#32
  let main_v22 : FVec F S1x16x2048x2048 .f32 := broadcastInDim S1x16x2048x2048 ![] bcast_S_S1x16x2048x2048 main_cst_6
  let main_v23 : IVec S1x16x2048x2048 1 := cmpf .oeq main_arg3 main_v22
  let main_v24 : IVec S1x16x2048x2048 1 := ori main_v21 main_v23
  let main_c_7 : IVec S_ 1 := constantI S_ 1 1#1
  let main_v25 : IVec S_ 1 := (fun x v => Host.reduce IntOp.andi x v reducesTo_S1x16x2048x2048_S_d0_1_2_3 h_S_) main_v24 main_c_7
  let main_v26 : IVec S_ 1 := andi main_v18 main_v25
  main_v26

def fn {F : FTy → Type} [FloatOps F] (main_arg0 : FVec F S2x16x2048x128 .f32) (main_arg1 : FVec F S2x16x2048x128 .f32) (main_arg2 : FVec F S2x16x2048x128 .f32) (main_arg3 : FVec F S1x16x2048x2048 .f32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  let main_v14 : FVec F S1x16x2048x2048 .f32 := Host.absf main_arg3
  let main_cst_4 : FVec F S_ .f32 := constant S_ .f32 0x7F800000#32
  let main_v15 : FVec F S1x16x2048x2048 .f32 := broadcastInDim S1x16x2048x2048 ![] bcast_S_S1x16x2048x2048 main_cst_4
  let main_v16 : IVec S1x16x2048x2048 1 := cmpf .olt main_v14 main_v15
  fn_part1 (F := F) main_arg3 main_v13 main_v16
-- ==== Kernel.lean ====
abbrev S2x16x2048x128 : Shape := ⟨4, ![2, 16, 2048, 128]⟩
abbrev S1x16x2048x2048 : Shape := ⟨4, ![1, 16, 2048, 2048]⟩
abbrev S2x1x512x128 : Shape := ⟨4, ![2, 1, 512, 128]⟩
abbrev S1x1x512x512 : Shape := ⟨4, ![1, 1, 512, 512]⟩
abbrev S2x512x128 : Shape := ⟨3, ![2, 512, 128]⟩
abbrev S2x512x1 : Shape := ⟨3, ![2, 512, 1]⟩
abbrev S512x1 : Shape := ⟨2, ![512, 1]⟩
abbrev S512x512 : Shape := ⟨2, ![512, 512]⟩
abbrev S2x512x512 : Shape := ⟨3, ![2, 512, 512]⟩
abbrev S1x512x512 : Shape := ⟨3, ![1, 512, 512]⟩
abbrev S2x512 : Shape := ⟨2, ![2, 512]⟩
abbrev S512 : Shape := ⟨1, ![512]⟩
abbrev S1x512x1 : Shape := ⟨3, ![1, 512, 1]⟩

abbrev nBuf : Space → Nat
  | .hbm => 5
  | .vmem => 13
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S1x16x2048x2048, .f32⟩
  | .hbm, ⟨4, _⟩ => ⟨S2x16x2048x128, .f32⟩
  | .local _ .vmem, ⟨0, _⟩ => ⟨S2x1x512x128, .f32⟩
  | .local _ .vmem, ⟨1, _⟩ => ⟨S2x1x512x128, .f32⟩
  | .local _ .vmem, ⟨2, _⟩ => ⟨S2x1x512x128, .f32⟩
  | .local _ .vmem, ⟨3, _⟩ => ⟨S2x1x512x128, .f32⟩
  | .local _ .vmem, ⟨4, _⟩ => ⟨S2x1x512x128, .f32⟩
  | .local _ .vmem, ⟨5, _⟩ => ⟨S2x1x512x128, .f32⟩
  | .local _ .vmem, ⟨6, _⟩ => ⟨S1x1x512x512, .f32⟩
  | .local _ .vmem, ⟨7, _⟩ => ⟨S1x1x512x512, .f32⟩
  | .local _ .vmem, ⟨8, _⟩ => ⟨S2x1x512x128, .f32⟩
  | .local _ .vmem, ⟨9, _⟩ => ⟨S2x1x512x128, .f32⟩
  | .local _ .vmem, ⟨10, _⟩ => ⟨S2x512x128, .f32⟩
  | .local _ .vmem, ⟨11, _⟩ => ⟨S2x512x1, .f32⟩
  | .local _ .vmem, ⟨12, _⟩ => ⟨S512x1, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  let c0_i32_1 : BitVec 32 := 0#32
  ![c0_i32.toNat, arg0.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![c0_i32.toNat, arg0.toNat, arg1.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S2x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S2x512x128_S2x512x128_0_0_0 : ∀ a, (![0, 0, 0] : Fin 3 → Nat) a + S2x512x128.size a ≤ S2x512x128.size a
  h_S2x512x128 : 0 < S2x512x128.numel
  shapeCasts_S2x512x128_S2x512x128 : S2x512x128.ShapeCasts S2x512x128
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2x1x512x128_S2x1x512x128_0_0_0_0 : ∀ a, (![0, 0, 0, 0] : Fin 4 → Nat) a + S2x1x512x128.size a ≤ S2x1x512x128.size a
  h_S2x1x512x128 : 0 < S2x1x512x128.numel
  shapeCasts_S2x1x512x128_S2x512x128 : S2x1x512x128.ShapeCasts S2x512x128
  bitsLt_bf16_f32 : FTy.bits .bf16 < FTy.bits .f32
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x512x512 : S512x512.ShapeCasts S1x512x512
  broadcasts_S1x512x512_S2x512x512 : S1x512x512.Broadcasts S2x512x512
  reduces_S2x512x512_S2x512 : S2x512x512.Reduces [2] S2x512
  shapeCasts_S2x512_S2x512x1 : S2x512.ShapeCasts S2x512x1
  reduces_S512x512_S512 : S512x512.Reduces [1] S512
  shapeCasts_S512_S512x1 : S512.ShapeCasts S512x1
  shapeCasts_S512x1_S1x512x1 : S512x1.ShapeCasts S1x512x1
  broadcasts_S1x512x1_S2x512x1 : S1x512x1.Broadcasts S2x512x1
  broadcasts_S1x512x1_S2x512x128 : S1x512x1.Broadcasts S2x512x128
  broadcasts_S2x512x1_S2x512x128 : S2x512x1.Broadcasts S2x512x128
  shapeCasts_S2x512x128_S2x1x512x128 : S2x512x128.ShapeCasts S2x1x512x128
  dot_S2x512x128_S2x512x128_S2x512x512_2_2_1_1_0_0_wf : DotDims.WF S2x512x128 S2x512x128 S2x512x512 [2] [2] [1] [1] [0] [0]
  dot_S2x512x512_S2x512x128_S2x512x128_2_1_1_2_0_0_wf : DotDims.WF S2x512x512 S2x512x128 S2x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x512x128.size a ≤ S2x16x2048x128.size a
  hwx0_0 : ∀ i : grid0.Coords, EltTy.bits .f32 = 32 ∨ (Rect.block (s := S2x16x2048x128) S2x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512x128.size a ≤ S2x16x2048x128.size a
  hwx0_1 : ∀ i : grid0.Coords, EltTy.bits .f32 = 32 ∨ (Rect.block (s := S2x16x2048x128) S2x1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x512x128.size a ≤ S2x16x2048x128.size a
  hwx0_2 : ∀ i : grid0.Coords, EltTy.bits .f32 = 32 ∨ (Rect.block (s := S2x16x2048x128) S2x1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S1x16x2048x2048.size a
  hwx0_3 : ∀ i : grid0.Coords, EltTy.bits .f32 = 32 ∨ (Rect.block (s := S1x16x2048x2048) S1x1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x512x128.size a ≤ S2x16x2048x128.size a
  hwx0_4 : ∀ i : grid0.Coords, EltTy.bits .f32 = 32 ∨ (Rect.block (s := S2x16x2048x128) S2x1x512x128.size (cc0_transform_4 i) (hinb0_4 i)).WholeWords (EltTy.packing .f32)

variable [Facts₀]

def dot_S2x512x128_S2x512x128_S2x512x512_2_2_1_1_0_0 : DotDims S2x512x128 S2x512x128 S2x512x512 where
  lhsContracting := [2]
  rhsContracting := [2]
  lhsNonContracting := [1]
  rhsNonContracting := [1]
  lhsBatch := [0]
  rhsBatch := [0]
  wf := dot_S2x512x128_S2x512x128_S2x512x512_2_2_1_1_0_0_wf
def dot_S2x512x512_S2x512x128_S2x512x128_2_1_1_2_0_0 : DotDims S2x512x512 S2x512x128 S2x512x128 where
  lhsContracting := [2]
  rhsContracting := [1]
  lhsNonContracting := [1]
  rhsNonContracting := [2]
  lhsBatch := [0]
  rhsBatch := [0]
  wf := dot_S2x512x512_S2x512x128_S2x512x128_2_1_1_2_0_0_wf

abbrev win0_0 : Pipeline.Window sig grid0 :=
  Pipeline.Window.ofSpec (Memref.whole main_arg0) S2x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S2x16x2048x128 : Shape := ⟨4, ![2, 16, 2048, 128]⟩
abbrev S1x16x2048x2048 : Shape := ⟨4, ![1, 16, 2048, 2048]⟩
abbrev S16x2048x2048 : Shape := ⟨3, ![16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S1x16x2048x2048, .f32⟩
  | .hbm, ⟨4, _⟩ => ⟨S16x2048x2048, .f32⟩
  | .hbm, ⟨5, _⟩ => ⟨S_, .f32⟩
  | .hbm, ⟨6, _⟩ => ⟨S1x16x2048, .f32⟩
  | .hbm, ⟨7, _⟩ => ⟨S1x16x2048x1, .f32⟩
  | .hbm, ⟨8, _⟩ => ⟨S2x16x2048x128, .f32⟩
  | .hbm, ⟨9, _⟩ => ⟨S2x16x2048x128, .f32⟩
  | .hbm, ⟨10, _⟩ => ⟨S2x16x2048x2048, .f32⟩
  | .hbm, ⟨11, _⟩ => ⟨S1x16x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S_, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x128, .f32⟩
  | .hbm, ⟨23, _⟩ => ⟨S2x16x2048x128, .f32⟩
  | .hbm, ⟨24, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  shapeCasts_S1x16x2048x2048_S16x2048x2048 : S1x16x2048x2048.ShapeCasts S16x2048x2048
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S1x16x2048x1_S2x16x2048x128_0_1_2_3 : S1x16x2048x1.BroadcastsInDim S2x16x2048x128 (![0, 1, 2, 3] : Fin 4 → Fin S2x16x2048x128.rank)
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x128_0_1_2_3 : S2x16x2048x1.BroadcastsInDim S2x16x2048x128 (![0, 1, 2, 3] : Fin 4 → Fin S2x16x2048x128.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.KStep.lean ====
import proofs.«156671_j46643344835366_1_alg».proof.Proof.Gen.Kernel.Frame
import proofs.«156671_j46643344835366_1_alg».proof.Proof.Gen.Kernel.Skeleton
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's three branch conditions, as the kernel computes them from the grid coordinates: the column-block counter is 0;
    it is at most the row-block's; it equals the row-block's. -/
abbrev c1 (i : grid0.Coords) : Prop := Scalar.cmpi .ne (Scalar.extui (Scalar.cmpi .eq (BitVec.ofNat 32 (i 2).val) 0#32)) 0#32 = 1#1
abbrev c2 (i : grid0.Coords) : Prop := Scalar.cmpi .ne (Scalar.extui (Scalar.cmpi .sle (BitVec.ofNat 32 (i 2).val) (BitVec.ofNat 32 (i 1).val))) 0#32 = 1#1
abbrev c3 (i : grid0.Coords) : Prop := k0_cond3 i = 1#1

/-- One grid point's effect on the three running sums (reset under the first condition, then one block added under the
    second), as functions of the point's input blocks and of what the sums held before. -/
def stepO (i : grid0.Coords) (xq xk xv : Vec F S2x1x512x128 .f32) (xm : Vec F S1x1x512x512 .f32) (xo : Vec F S2x512x128 .f32) : Vec F S2x512x128 .f32 :=
  if c2 i then k0_pay9 xq xk xv xm (if c1 i then k0_pay1 else xo) else (if c1 i then k0_pay1 else xo)
def stepP (i : grid0.Coords) (xq xk : Vec F S2x1x512x128 .f32) (xm : Vec F S1x1x512x512 .f32) (xp : Vec F S2x512x1 .f32) : Vec F S2x512x1 .f32 :=
  if c2 i then k0_pay4 (k0_pay10 xq xk xm (if c1 i then k0_pay2 else xp)) else (if c1 i then k0_pay2 else xp)
def stepL (i : grid0.Coords) (xm : Vec F S1x1x512x512 .f32) (xl : Vec F S512x1 .f32) : Vec F S512x1 .f32 :=
  if c2 i then k0_pay5 (k0_pay7 xm) (if c1 i then k0_pay3 else xl) else (if c1 i then k0_pay3 else xl)
/-- and on the output block's buffer: overwritten with the normalised quotient under the third condition, else left. -/
def stepOut (i : grid0.Coords) (xq xk xv : Vec F S2x1x512x128 .f32) (xm : Vec F S1x1x512x512 .f32) (xout : Vec F S2x1x512x128 .f32)
    (xo : Vec F S2x512x128 .f32) (xp : Vec F S2x512x1 .f32) (xl : Vec F S512x1 .f32) : Vec F S2x1x512x128 .f32 :=
  if c3 i then k0_pay6 (stepL i xm xl) (stepP i xq xk xm xp) (stepO i xq xk xv xm xo) else xout

theorem hz3 : (![0, 0, 0] : Fin 3 → ℕ) = fun _ => 0 := by funext a; fin_cases a <;> rfl
theorem hz2 : (![0, 0] : Fin 2 → ℕ) = fun _ => 0 := by funext a; fin_cases a <;> rfl
theorem hz4 : (![0, 0, 0, 0] : Fin 4 → ℕ) = fun _ => 0 := by funext a; fin_cases a <;> rfl

theorem stepO_of_c1 (i : grid0.Coords) (h : c1 i) (xq xk xv : Vec F S2x1x512x128 .f32) (xm : Vec F S1x1x512x512 .f32) (xo xo' : Vec F S2x512x128 .f32) :
    stepO i xq xk xv xm xo = stepO i xq xk xv xm xo' := by unfold stepO; simp only [if_pos h]
theorem stepP_of_c1 (i : grid0.Coords) (h : c1 i) (xq xk : Vec F S2x1x512x128 .f32) (xm : Vec F S1x1x512x512 .f32) (xp xp' : Vec F S2x512x1 .f32) :
    stepP i xq xk xm xp = stepP i xq xk xm xp' := by unfold stepP; simp only [if_pos h]
theorem stepL_of_c1 (i : grid0.Coords) (h : c1 i) (xm : Vec F S1x1x512x512 .f32) (xl xl' : Vec F S512x1 .f32) :
    stepL i xm xl = stepL i xm xl' := by unfold stepL; simp only [if_pos h]

section Reads
variable {Val : EltTy → Type} [∀ e, Nonempty (Val e)] {sg : RefSig} {κ : Kind} {sp : Space} {S : Shape} {e : EltTy}

/-- A buffer whose LAST store filled all of it holds that store's value. -/
theorem read_writes_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- and a whole load after it reads that value back. -/
theorem readCov_zero (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]

/-- A whole load of a whole buffer reads its contents. -/
theorem readAt_zero (M : Memref sg κ sp S e) (hM : M.IsWhole) {off : Fin S.rank → ℕ} (h : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero h inb]

end Reads

end Cert.Kernel.Body
end
-- ==== Proof.KBodyA.lean ====
import proofs.«156671_j46643344835366_1_alg».proof.Proof.KStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_TTT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_pos h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TTF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_pos h2, if_neg h3]
    exact harg7.read_unread _
  isplitl [H8]
  · iexists _; isplitr
    swap; · iexact H8
    ipureintro
    simp only [stepOut, stepO, stepP, stepL, if_pos h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_pos h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TFT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : ¬c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_neg h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TFF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : ¬c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_neg h2, if_neg h3]
    exact harg7.read_unread _
  isplitl [H8]
  · iexists _; isplitr
    swap; · iexact H8
    ipureintro
    simp only [stepOut, stepO, stepP, stepL, if_pos h1, if_neg h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_neg h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_neg h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

end Cert.Kernel.Body
end
-- ==== Proof.KBodyB.lean ====
import proofs.«156671_j46643344835366_1_alg».proof.Proof.KStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem run_FTT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_neg h1, if_pos h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_FTF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_pos h2, if_neg h3]
    exact harg7.read_unread _
  isplitl [H8]
  · iexists _; isplitr
    swap; · iexact H8
    ipureintro
    simp only [stepOut, stepO, stepP, stepL, if_neg h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_neg h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_neg h1, if_pos h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_FFT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : ¬c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_neg h1, if_neg h2, if_pos h3]
    exact harg8.read_unread _
  isplitl [H9]
  · iexists _; isplitr
    swap; · iexact H9
    ipureintro
    simp only [stepOut, stepO, stepP, stepL, if_neg h1, if_neg h2, if_pos h3]
    exact harg9.read_unread _
  iexists _; isplitr
  swap; · iexact H10
  ipureintro
  simp only [stepOut, stepO, stepP, stepL, if_neg h1, if_neg h2, if_pos h3]
  exact harg10.read_unread _

set_option maxHeartbeats 4000000 in
theorem run_FFF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : ¬c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_neg h2, if_neg h3]
    exact harg7.read_unread _
  isplitl [H8]
  · iexists _; isplitr
    swap; · iexact H8
    ipureintro
    simp only [stepOut, stepO, stepP, stepL, if_neg h1, if_neg h2, if_neg h3]
    exact harg8.read_unread _
  isplitl [H9]
  · iexists _; isplitr
    swap; · iexact H9
    ipureintro
    simp only [stepOut, stepO, stepP, stepL, if_neg h1, if_neg h2, if_neg h3]
    exact harg9.read_unread _
  iexists _; isplitr
  swap; · iexact H10
  ipureintro
  simp only [stepOut, stepO, stepP, stepL, if_neg h1, if_neg h2, if_neg h3]
  exact harg10.read_unread _

end Cert.Kernel.Body
end
-- ==== Proof.KBody.lean ====
import proofs.«156671_j46643344835366_1_alg».proof.Proof.KBodyA
import proofs.«156671_j46643344835366_1_alg».proof.Proof.KBodyB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body on any staging and scratch memrefs, at any grid point: it gives every buffer back one step on. By the eight
    settings of the three branch conditions. -/
theorem body_run (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)

    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  by_cases h1 : c1 i <;> by_cases h2 : c2 i <;> by_cases h3 : c3 i
  · exact run_TTT c i arg3 harg3 arg4 harg4 arg5 harg5 arg6 harg6 arg7 harg7 arg8 harg8 arg9 harg9 arg10 harg10 h1 h2 h3 xq xk xv xm xout xo xp xl E K
  · exact run_TTF c i arg3 harg3 arg4 harg4 arg5 harg5 arg6 harg6 arg7 harg7 arg8 harg8 arg9 harg9 arg10 harg10 h1 h2 h3 xq xk xv xm xout xo xp xl E K
  · exact run_TFT c i arg3 harg3 arg4 harg4 arg5 harg5 arg6 harg6 arg7 harg7 arg8 harg8 arg9 harg9 arg10 harg10 h1 h2 h3 xq xk xv xm xout xo xp xl E K
  · exact run_TFF c i arg3 harg3 arg4 harg4 arg5 harg5 arg6 harg6 arg7 harg7 arg8 harg8 arg9 harg9 arg10 harg10 h1 h2 h3 xq xk xv xm xout xo xp xl E K
  · exact run_FTT c i arg3 harg3 arg4 harg4 arg5 harg5 arg6 harg6 arg7 harg7 arg8 harg8 arg9 harg9 arg10 harg10 h1 h2 h3 xq xk xv xm xout xo xp xl E K
  · exact run_FTF c i arg3 harg3 arg4 harg4 arg5 harg5 arg6 harg6 arg7 harg7 arg8 harg8 arg9 harg9 arg10 harg10 h1 h2 h3 xq xk xv xm xout xo xp xl E K
  · exact run_FFT c i arg3 harg3 arg4 harg4 arg5 harg5 arg6 harg6 arg7 harg7 arg8 harg8 arg9 harg9 arg10 harg10 h1 h2 h3 xq xk xv xm xout xo xp xl E K
  · exact run_FFF c i arg3 harg3 arg4 harg4 arg5 harg5 arg6 harg6 arg7 harg7 arg8 harg8 arg9 harg9 arg10 harg10 h1 h2 h3 xq xk xv xm xout xo xp xl E K

end Cert.Kernel.Body
end
-- ==== Proof.KData.lean ====
import proofs.«156671_j46643344835366_1_alg».proof.Proof.KStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid: point t is (head, row-block, column-block) = (t / 16, t / 4 % 4, t % 4) -/

theorem hc1 : ∀ t : Fin cfg0.N, c1 (grid0.coords t) ↔ t.val % 4 = 0 :=
  (by decide +kernel : ∀ t : Fin grid0.N, c1 (grid0.coords t) ↔ t.val % 4 = 0)
theorem hc2 : ∀ t : Fin cfg0.N, c2 (grid0.coords t) ↔ t.val % 4 ≤ t.val / 4 % 4 :=
  (by decide +kernel : ∀ t : Fin grid0.N, c2 (grid0.coords t) ↔ t.val % 4 ≤ t.val / 4 % 4)
theorem hc3 : ∀ t : Fin cfg0.N, c3 (grid0.coords t) ↔ t.val % 4 = t.val / 4 % 4 :=
  (by decide +kernel : ∀ t : Fin grid0.N, c3 (grid0.coords t) ↔ t.val % 4 = t.val / 4 % 4)

/-! ## The staging and scratch memrefs at a point -/

abbrev ms0 (t : Fin cfg0.N) : Memref sig .tc .vmem S2x1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x512x128 .f32 := win0_4.stage (cfg0.slots t 4)
abbrev hs4 (t : Fin cfg0.N) : (ms4 t).IsWhole := hstage0_4 ((cfg0.slots t 4).cast nbuf0_4)
abbrev scM0 : Memref sig .tc .vmem S2x512x128 .f32 := Memref.whole cc0_scratch0
abbrev scM1 : Memref sig .tc .vmem S2x512x1 .f32 := Memref.whole cc0_scratch1
abbrev scM2 : Memref sig .tc .vmem S512x1 .f32 := Memref.whole cc0_scratch2

/-! ## What the three running sums and the output block's buffer hold after each point -/

/-- The running sums (numerator, row sums of the scores, row sums of the mask) after point `n`: one step from what
    the point before left; the first point resets them, so its start value is immaterial. -/
def stAt (c : Dev nD) : (n : ℕ) → n < cfg0.N → Vec F S2x512x128 .f32 × Vec F S2x512x1 .f32 × Vec F S512x1 .f32
  | 0, hn => (stepO (grid0.coords ⟨0, hn⟩) (iblk m c 0 ⟨0, hn⟩) (iblk m c 1 ⟨0, hn⟩) (iblk m c 2 ⟨0, hn⟩) (iblk m c 3 ⟨0, hn⟩) k0_pay1,
      stepP (grid0.coords ⟨0, hn⟩) (iblk m c 0 ⟨0, hn⟩) (iblk m c 1 ⟨0, hn⟩) (iblk m c 3 ⟨0, hn⟩) k0_pay2,
      stepL (grid0.coords ⟨0, hn⟩) (iblk m c 3 ⟨0, hn⟩) k0_pay3)
  | n + 1, hn =>
    (stepO (grid0.coords ⟨n + 1, hn⟩) (iblk m c 0 ⟨n + 1, hn⟩) (iblk m c 1 ⟨n + 1, hn⟩) (iblk m c 2 ⟨n + 1, hn⟩) (iblk m c 3 ⟨n + 1, hn⟩) (stAt c n (Nat.lt_of_succ_lt hn)).1,
      stepP (grid0.coords ⟨n + 1, hn⟩) (iblk m c 0 ⟨n + 1, hn⟩) (iblk m c 1 ⟨n + 1, hn⟩) (iblk m c 3 ⟨n + 1, hn⟩) (stAt c n (Nat.lt_of_succ_lt hn)).2.1,
      stepL (grid0.coords ⟨n + 1, hn⟩) (iblk m c 3 ⟨n + 1, hn⟩) (stAt c n (Nat.lt_of_succ_lt hn)).2.2)

theorem stAt_pos (c : Dev nD) (t : Fin cfg0.N) (ht : t.val ≠ 0) :
    stAt m c t.val t.isLt =
      (stepO (grid0.coords t) (iblk m c 0 t) (iblk m c 1 t) (iblk m c 2 t) (iblk m c 3 t) (stAt m c (t.val - 1) (Nat.lt_of_le_of_lt (Nat.sub_le _ _) t.isLt)).1,
        stepP (grid0.coords t) (iblk m c 0 t) (iblk m c 1 t) (iblk m c 3 t) (stAt m c (t.val - 1) (Nat.lt_of_le_of_lt (Nat.sub_le _ _) t.isLt)).2.1,
        stepL (grid0.coords t) (iblk m c 3 t) (stAt m c (t.val - 1) (Nat.lt_of_le_of_lt (Nat.sub_le _ _) t.isLt)).2.2) := by
  obtain ⟨n, hn⟩ := t
  cases n with
  | zero => exact absurd rfl ht
  | succ n => rfl

theorem stAt_zero (c : Dev nD) (t : Fin cfg0.N) (ht : t.val = 0) :
    stAt m c t.val t.isLt =
      (stepO (grid0.coords t) (iblk m c 0 t) (iblk m c 1 t) (iblk m c 2 t) (iblk m c 3 t) k0_pay1,
        stepP (grid0.coords t) (iblk m c 0 t) (iblk m c 1 t) (iblk m c 3 t) k0_pay2,
        stepL (grid0.coords t) (iblk m c 3 t) k0_pay3) := by
  obtain ⟨n, hn⟩ := t
  cases n with
  | zero => rfl
  | succ n => exact absurd ht (Nat.succ_ne_zero n)

/-- One step from ANY start that agrees with the point before (at the first point: from any start at all) gives the
    sums after the point. -/
theorem stepO_eq (c : Dev nD) (t : Fin cfg0.N) (xo : Vec F S2x512x128 .f32)
    (h : ∀ ht : t.val ≠ 0, xo = (stAt m c (t.val - 1) (Nat.lt_of_le_of_lt (Nat.sub_le _ _) t.isLt)).1) :
    stepO (grid0.coords t) (iblk m c 0 t) (iblk m c 1 t) (iblk m c 2 t) (iblk m c 3 t) xo = (stAt m c t.val t.isLt).1 := by
  by_cases ht : t.val = 0
  · rw [stAt_zero m c t ht]; exact stepO_of_c1 _ ((hc1 t).mpr (by rw [ht])) _ _ _ _ _ _
  · rw [stAt_pos m c t ht, h ht]
theorem stepP_eq (c : Dev nD) (t : Fin cfg0.N) (xp : Vec F S2x512x1 .f32)
    (h : ∀ ht : t.val ≠ 0, xp = (stAt m c (t.val - 1) (Nat.lt_of_le_of_lt (Nat.sub_le _ _) t.isLt)).2.1) :
    stepP (grid0.coords t) (iblk m c 0 t) (iblk m c 1 t) (iblk m c 3 t) xp = (stAt m c t.val t.isLt).2.1 := by
  by_cases ht : t.val = 0
  · rw [stAt_zero m c t ht]; exact stepP_of_c1 _ ((hc1 t).mpr (by rw [ht])) _ _ _ _ _
  · rw [stAt_pos m c t ht, h ht]
theorem stepL_eq (c : Dev nD) (t : Fin cfg0.N) (xl : Vec F S512x1 .f32)
    (h : ∀ ht : t.val ≠ 0, xl = (stAt m c (t.val - 1) (Nat.lt_of_le_of_lt (Nat.sub_le _ _) t.isLt)).2.2) :
    stepL (grid0.coords t) (iblk m c 3 t) xl = (stAt m c t.val t.isLt).2.2 := by
  by_cases ht : t.val = 0
  · rw [stAt_zero m c t ht]; exact stepL_of_c1 _ ((hc1 t).mpr (by rw [ht])) _ _ _
  · rw [stAt_pos m c t ht, h ht]

/-- The output block's staging buffer after point `n`: the normalised quotient of the sums where the column-block has
    reached the row-block's own, and from then on unchanged until the row-block's last point writes it back. (Before that
    point it is whatever the buffer held, which nothing reads.) -/
def outAt (c : Dev nD) : (n : ℕ) → n < cfg0.N → Vec F S2x1x512x128 .f32
  | 0, hn => k0_pay6 (stAt m c 0 hn).2.2 (stAt m c 0 hn).2.1 (stAt m c 0 hn).1
  | n + 1, hn =>
    if c3 (grid0.coords ⟨n + 1, hn⟩) then k0_pay6 (stAt m c (n + 1) hn).2.2 (stAt m c (n + 1) hn).2.1 (stAt m c (n + 1) hn).1
    else outAt c n (Nat.lt_of_succ_lt hn)

theorem outAt_c3 (c : Dev nD) (t : Fin cfg0.N) (h3 : c3 (grid0.coords t)) :
    outAt m c t.val t.isLt = k0_pay6 (stAt m c t.val t.isLt).2.2 (stAt m c t.val t.isLt).2.1 (stAt m c t.val t.isLt).1 := by
  obtain ⟨n, hn⟩ := t
  cases n with
  | zero => rfl
  | succ n => exact if_pos h3

theorem outAt_not_c3 (c : Dev nD) (t : Fin cfg0.N) (ht : t.val ≠ 0) (h3 : ¬c3 (grid0.coords t)) :
    outAt m c t.val t.isLt = outAt m c (t.val - 1) (Nat.lt_of_le_of_lt (Nat.sub_le _ _) t.isLt) := by
  obtain ⟨n, hn⟩ := t
  cases n with
  | zero => exact absurd rfl ht
  | succ n => exact if_neg h3

/-! ## The invariant between points and the proof data -/

/-- Before the first point the scratch buffers hold anything; after point `n` the three running sums. -/
def PhiS (c : Dev nD) : (n : ℕ) → n ≤ cfg0.N → sProp 𝕄
  | 0, _ => Pipeline.ΦA spec0 c
  | n + 1, hn => iprop(iprop(owns (c : Thread nD τ) scM0 fullShare ((stAt m c n hn).1) ∗ owns (c : Thread nD τ) scM1 fullShare ((stAt m c n hn).2.1)
      ∗ owns (c : Thread nD τ) scM2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((stAt m c n hn).1) ∗ owns (c : Thread nD τ) scM1 fullShare ((stAt m c n hn).2.1)
      ∗ owns (c : Thread nD τ) scM2 fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((stAt m c (n - 1) (by omega)).1) ∗ owns (c : Thread nD τ) scM1 fullShare ((stAt m c (n - 1) (by omega)).2.1)
      ∗ owns (c : Thread nD τ) scM2 fullShare ((stAt m c (n - 1) (by omega)).2.2)) ∗ (∃ r, prngReg c r)) := by
  cases n with
  | zero => exact absurd rfl hz
  | succ n => rfl

/-- The proof data of the one pipeline on core `c`: the arrays as the region finds them; after the body each input's
    buffer at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

end Cert.Kernel.Body
end
-- ==== Proof.KFrame.lean ====
import proofs.«156671_j46643344835366_1_alg».proof.Proof.KBody
import proofs.«156671_j46643344835366_1_alg».proof.Proof.KData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each staging buffer holds when the body runs -/

theorem before0 (c : Dev nD) (t : Fin cfg0.N) (d) : (dats m 0 c).before 0 t d = iblk m c 0 t :=
  before0_0_of m (dats m 0 c) (A_eq m c 0) (after0_0 m c) t d
theorem before1 (c : Dev nD) (t : Fin cfg0.N) (d) : (dats m 0 c).before 1 t d = iblk m c 1 t :=
  before0_1_of m (dats m 0 c) (A_eq m c 1) (after0_1 m c) t d
theorem before2 (c : Dev nD) (t : Fin cfg0.N) (d) : (dats m 0 c).before 2 t d = iblk m c 2 t :=
  before0_2_of m (dats m 0 c) (A_eq m c 2) (after0_2 m c) t d
theorem before3 (c : Dev nD) (t : Fin cfg0.N) (d) : (dats m 0 c).before 3 t d = iblk m c 3 t :=
  before0_3_of m (dats m 0 c) (A_eq m c 3) (after0_3 m c) t d

/-- The output window is idle exactly where the third condition fails. -/
theorem idle4_of_c3 (t : Fin cfg0.N) (h : c3 (grid0.coords t)) : cfg0.idle 4 (grid0.coords t) = false := by
  show (!(k0_cond3 (grid0.coords t) == 1#1)) = false
  rw [h]; rfl
theorem idle4_of_not_c3 (t : Fin cfg0.N) (h : ¬c3 (grid0.coords t)) : cfg0.idle 4 (grid0.coords t) = true := by
  show (!(k0_cond3 (grid0.coords t) == 1#1)) = true
  rw [Bool.not_eq_true', beq_eq_false_iff_ne]; exact h

/-- The output window is uncut: what the body left in its buffer is all of it. -/
theorem kept4 (c : Dev nD) (t : Fin cfg0.N) (d) : (dats m 0 c).kept 4 t d = outAt m c t.val t.isLt := by
  unfold Dat.kept
  rw [Pipeline.fill_of_clip_none 4 _ (fun _ => rfl) d ((dats m 0 c).after 4 t), Window.fill_cut, after0_4]

/-- At a point whose column-block is past the row-block's own, the output's buffer still holds what the point before left:
    nothing was written back in between, and the points in between store nothing into it. -/
theorem before4_run (c : Dev nD) : ∀ (n : ℕ) (hn : n < cfg0.N), n / 4 % 4 < n % 4 → ∀ d,
    (dats m 0 c).before 4 ⟨n, hn⟩ d = outAt m c (n - 1) (Nat.lt_of_le_of_lt (Nat.sub_le _ _) hn) := by
  intro n
  induction n with
  | zero => intro hn h; exact absurd h (by decide)
  | succ n ih =>
    intro hn h d
    have hn' : n < cfg0.N := Nat.lt_of_succ_lt hn
    have hfl : (cfg0.win 4).flush ⟨n, hn'⟩ = false := Bool.eq_false_iff.mpr fun hf => by
      have := (flush0_4 ⟨n, hn'⟩).mp hf; dsimp only at this; omega
    rw [(dats m 0 c).before_of_pos 4 ⟨n + 1, hn⟩ (Nat.succ_ne_zero n) ((cfg0.win 4).fetch_out rfl _)]
    show (if (cfg0.win 4).flush ⟨n, hn'⟩ = true then d else (dats m 0 c).left 4 ⟨n, hn'⟩ d) = outAt m c n hn'
    rw [hfl, if_neg Bool.false_ne_true]
    unfold Dat.left
    by_cases h3 : c3 (grid0.coords ⟨n, hn'⟩)
    · rw [idle4_of_c3 ⟨n, hn'⟩ h3]; exact kept4 m c ⟨n, hn'⟩ d
    · rw [idle4_of_not_c3 ⟨n, hn'⟩ h3]
      have h3' := (hc3 ⟨n, hn'⟩).not.mp h3
      dsimp only at h3'
      have hn0 : n ≠ 0 := by omega
      show (dats m 0 c).before 4 ⟨n, hn'⟩ d = outAt m c n hn'
      rw [ih hn' (by omega) d]
      exact (outAt_not_c3 m c ⟨n, hn'⟩ hn0 h3).symm

/-- What the body leaves in the output's buffer is what the window's obligation asks at the point: the quotient where it
    stores; the untouched buffer where the point neither stores nor writes back; and at a row-block's last point, where the
    block is written back without a store, the quotient stored earlier and kept since. -/
theorem out_leaves (c : Dev nD) (t : Fin cfg0.N) (xo : Vec F S2x512x128 .f32) (xp : Vec F S2x512x1 .f32) (xl : Vec F S512x1 .f32) (d)
    (hO : stepO (grid0.coords t) (iblk m c 0 t) (iblk m c 1 t) (iblk m c 2 t) (iblk m c 3 t) xo = (stAt m c t.val t.isLt).1)
    (hP : stepP (grid0.coords t) (iblk m c 0 t) (iblk m c 1 t) (iblk m c 3 t) xp = (stAt m c t.val t.isLt).2.1)
    (hL : stepL (grid0.coords t) (iblk m c 3 t) xl = (stAt m c t.val t.isLt).2.2) :
    owns (c : Thread nD τ) (ms4 t) fullShare (stepOut (grid0.coords t) (iblk m c 0 t) (iblk m c 1 t) (iblk m c 2 t) (iblk m c 3 t) ((dats m 0 c).before 4 t d) xo xp xl)
      ⊢ (dats m 0 c).leavesExact 4 t := by
  by_cases h3 : c3 (grid0.coords t)
  · rw [show (dats m 0 c).leavesExact 4 t = owns (c : Thread nD τ) (ms4 t) fullShare ((dats m 0 c).after 4 t) from by
      unfold Dat.leavesExact; rw [idle4_of_c3 t h3], after0_4, outAt_c3 m c t h3]
    unfold stepOut; rw [if_pos h3, hO, hP, hL]
  · unfold stepOut; rw [if_neg h3]
    by_cases hf : t.val % 4 = 3
    · have hfl : (cfg0.win 4).flush t = true := (flush0_4 t).mpr hf
      rw [show (dats m 0 c).leavesExact 4 t = owns (c : Thread nD τ) (ms4 t) fullShare ((dats m 0 c).after 4 t) from by
        unfold Dat.leavesExact; rw [idle4_of_not_c3 t h3, hfl], after0_4]
      have h3' := (hc3 t).not.mp h3
      have ht0 : t.val ≠ 0 := by omega
      rw [show (dats m 0 c).before 4 t d = (dats m 0 c).before 4 ⟨t.val, t.isLt⟩ d from rfl,
        before4_run m c t.val t.isLt (by omega) d, outAt_not_c3 m c t ht0 h3]
    · have hfl : (cfg0.win 4).flush t = false := Bool.eq_false_iff.mpr fun h => hf ((flush0_4 t).mp h)
      rw [Dat.leavesExact_idle (dats m 0 c) 4 t (idle4_of_not_c3 t h3) hfl]
      iintro H; iexists _; iexact H

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the scratch buffers hold the running sums the point before
    left (anything at the first point, which resets them); the run gives them back one step on, and the output's buffer as
    `out_leaves` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0_0]
  rw [show (dats m 0 c).leavesExact 1 t = owns (c : Thread nD τ) (ms1 t) fullShare ((dats m 0 c).after 1 t) from rfl, after0_1]
  rw [show (dats m 0 c).leavesExact 2 t = owns (c : Thread nD τ) (ms2 t) fullShare ((dats m 0 c).after 2 t) from rfl, after0_2]
  rw [show (dats m 0 c).leavesExact 3 t = owns (c : Thread nD τ) (ms3 t) fullShare ((dats m 0 c).after 3 t) from rfl, after0_3]
  rw [PhiS_castSucc m c t]
  by_cases hz : t.val = 0
  · rw [PhiS_zero m c _ _ hz, PhiA0_eq]
    iintro ⟨⟨⟨⟨%xo, HS0⟩, ⟨%xp, HS1⟩, ⟨%xl, HS2⟩⟩, Hg⟩, Ho, ⟨%d0, H0⟩, ⟨%d1, H1⟩, ⟨%d2, H2⟩, ⟨%d3, H3⟩, ⟨%d4, H4⟩⟩
    have hO := stepO_eq m c t xo (fun ht => absurd hz ht)
    have hP := stepP_eq m c t xp (fun ht => absurd hz ht)
    have hL := stepL_eq m c t xl (fun ht => absurd hz ht)
    rw [← hO, ← hP, ← hL]
    iapply (body_run c (grid0.coords t) (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (iblk m c 0 t) (iblk m c 1 t) (iblk m c 2 t) (iblk m c 3 t) ((dats m 0 c).before 4 t d4) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (out_leaves m c t _ _ _ d4 hO hP hL)
    iexact H4
  · rw [PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    have hO := stepO_eq m c t _ (fun _ => rfl)
    have hP := stepP_eq m c t _ (fun _ => rfl)
    have hL := stepL_eq m c t _ (fun _ => rfl)
    rw [← hO, ← hP, ← hL]
    iapply (body_run c (grid0.coords t) (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (iblk m c 0 t) (iblk m c 1 t) (iblk m c 2 t) (iblk m c 3 t) ((dats m 0 c).before 4 t d4) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (out_leaves m c t _ _ _ d4 hO hP hL)
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body
end
-- ==== Proof.KIStep.lean ====
import proofs.«156671_j46643344835366_1_alg».proof.Proof.Gen.KernelIdeal.Frame
import proofs.«156671_j46643344835366_1_alg».proof.Proof.Gen.KernelIdeal.Skeleton
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's three branch conditions, as the kernel computes them from the grid coordinates: the column-block counter is 0;
    it is at most the row-block's; it equals the row-block's. -/
abbrev c1 (i : grid0.Coords) : Prop := Scalar.cmpi .ne (Scalar.extui (Scalar.cmpi .eq (BitVec.ofNat 32 (i 2).val) 0#32)) 0#32 = 1#1
abbrev c2 (i : grid0.Coords) : Prop := Scalar.cmpi .ne (Scalar.extui (Scalar.cmpi .sle (BitVec.ofNat 32 (i 2).val) (BitVec.ofNat 32 (i 1).val))) 0#32 = 1#1
abbrev c3 (i : grid0.Coords) : Prop := k0_cond3 i = 1#1

/-- One grid point's effect on the three running sums (reset under the first condition, then one block added under the
    second), as functions of the point's input blocks and of what the sums held before. -/
def stepO (i : grid0.Coords) (xq xk xv : Vec F S2x1x512x128 .f32) (xm : Vec F S1x1x512x512 .f32) (xo : Vec F S2x512x128 .f32) : Vec F S2x512x128 .f32 :=
  if c2 i then k0_pay9 xq xk xv xm (if c1 i then k0_pay1 else xo) else (if c1 i then k0_pay1 else xo)
def stepP (i : grid0.Coords) (xq xk : Vec F S2x1x512x128 .f32) (xm : Vec F S1x1x512x512 .f32) (xp : Vec F S2x512x1 .f32) : Vec F S2x512x1 .f32 :=
  if c2 i then k0_pay4 (k0_pay10 xq xk xm (if c1 i then k0_pay2 else xp)) else (if c1 i then k0_pay2 else xp)
def stepL (i : grid0.Coords) (xm : Vec F S1x1x512x512 .f32) (xl : Vec F S512x1 .f32) : Vec F S512x1 .f32 :=
  if c2 i then k0_pay5 (k0_pay7 xm) (if c1 i then k0_pay3 else xl) else (if c1 i then k0_pay3 else xl)
/-- and on the output block's buffer: overwritten with the normalised quotient under the third condition, else left. -/
def stepOut (i : grid0.Coords) (xq xk xv : Vec F S2x1x512x128 .f32) (xm : Vec F S1x1x512x512 .f32) (xout : Vec F S2x1x512x128 .f32)
    (xo : Vec F S2x512x128 .f32) (xp : Vec F S2x512x1 .f32) (xl : Vec F S512x1 .f32) : Vec F S2x1x512x128 .f32 :=
  if c3 i then k0_pay6 (stepL i xm xl) (stepP i xq xk xm xp) (stepO i xq xk xv xm xo) else xout

theorem hz3 : (![0, 0, 0] : Fin 3 → ℕ) = fun _ => 0 := by funext a; fin_cases a <;> rfl
theorem hz2 : (![0, 0] : Fin 2 → ℕ) = fun _ => 0 := by funext a; fin_cases a <;> rfl
theorem hz4 : (![0, 0, 0, 0] : Fin 4 → ℕ) = fun _ => 0 := by funext a; fin_cases a <;> rfl

theorem stepO_of_c1 (i : grid0.Coords) (h : c1 i) (xq xk xv : Vec F S2x1x512x128 .f32) (xm : Vec F S1x1x512x512 .f32) (xo xo' : Vec F S2x512x128 .f32) :
    stepO i xq xk xv xm xo = stepO i xq xk xv xm xo' := by unfold stepO; simp only [if_pos h]
theorem stepP_of_c1 (i : grid0.Coords) (h : c1 i) (xq xk : Vec F S2x1x512x128 .f32) (xm : Vec F S1x1x512x512 .f32) (xp xp' : Vec F S2x512x1 .f32) :
    stepP i xq xk xm xp = stepP i xq xk xm xp' := by unfold stepP; simp only [if_pos h]
theorem stepL_of_c1 (i : grid0.Coords) (h : c1 i) (xm : Vec F S1x1x512x512 .f32) (xl xl' : Vec F S512x1 .f32) :
    stepL i xm xl = stepL i xm xl' := by unfold stepL; simp only [if_pos h]

section Reads
variable {Val : EltTy → Type} [∀ e, Nonempty (Val e)] {sg : RefSig} {κ : Kind} {sp : Space} {S : Shape} {e : EltTy}

/-- A buffer whose LAST store filled all of it holds that store's value. -/
theorem read_writes_zero (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- and a whole load after it reads that value back. -/
theorem readCov_zero (v : View sg κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb w L, View.ld_unit_zero h inb]

/-- A whole load of a whole buffer reads its contents. -/
theorem readAt_zero (M : Memref sg κ sp S e) (hM : M.IsWhole) {off : Fin S.rank → ℕ} (h : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero h inb]

end Reads

end Cert.KernelIdeal.Body
end
-- ==== Proof.KIBodyA.lean ====
import proofs.«156671_j46643344835366_1_alg».proof.Proof.KIStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run_TTT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_pos h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TTF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_pos h2, if_neg h3]
    exact harg7.read_unread _
  isplitl [H8]
  · iexists _; isplitr
    swap; · iexact H8
    ipureintro
    simp only [stepOut, stepO, stepP, stepL, if_pos h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_pos h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TFT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : ¬c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_neg h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_TFF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : c1 i) (h2 : ¬c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_pos h1, if_neg h2, if_neg h3]
    exact harg7.read_unread _
  isplitl [H8]
  · iexists _; isplitr
    swap; · iexact H8
    ipureintro
    simp only [stepOut, stepO, stepP, stepL, if_pos h1, if_neg h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_pos h1, if_neg h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_pos h1, if_neg h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

end Cert.KernelIdeal.Body
end
-- ==== Proof.KIBodyB.lean ====
import proofs.«156671_j46643344835366_1_alg».proof.Proof.KIStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem run_FTT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_neg h1, if_pos h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_neg h1, if_pos h2, if_pos h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_FTF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_pos h2, if_neg h3]
    exact harg7.read_unread _
  isplitl [H8]
  · iexists _; isplitr
    swap; · iexact H8
    ipureintro
    simp only [stepOut, stepO, stepP, stepL, if_neg h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H9]
  · iexists _; isplitr
    swap; · iexact H9
    ipureintro
    simp only [stepOut, stepO, stepP, stepL, if_neg h1, if_pos h2, if_neg h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  iexists _; isplitr
  swap; · iexact H10
  ipureintro
  simp only [stepOut, stepO, stepP, stepL, if_neg h1, if_pos h2, if_neg h3]
  (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])

set_option maxHeartbeats 4000000 in
theorem run_FFT (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : ¬c2 i) (h3 : c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_neg h2, if_pos h3]
    (sl_unfold_run_names; simp only [read_writes_zero (S := S2x1x512x128) (h := hz4), read_writes_zero (S := S2x512x128) (h := hz3), read_writes_zero (S := S2x512x1) (h := hz3), read_writes_zero (S := S512x1) (h := hz2), readCov_zero (S := S2x512x128) (h := hz3), readCov_zero (S := S2x512x1) (h := hz3), readCov_zero (S := S512x1) (h := hz2), readAt_zero arg3 harg3 hz4, readAt_zero arg4 harg4 hz4, readAt_zero arg5 harg5 hz4, readAt_zero arg6 harg6 hz4, readAt_zero arg8 harg8 hz3, readAt_zero arg9 harg9 hz3, readAt_zero arg10 harg10 hz2])
  isplitl [H8]
  · iexists _; isplitr
    swap; · iexact H8
    ipureintro
    simp only [stepOut, stepO, stepP, stepL, if_neg h1, if_neg h2, if_pos h3]
    exact harg8.read_unread _
  isplitl [H9]
  · iexists _; isplitr
    swap; · iexact H9
    ipureintro
    simp only [stepOut, stepO, stepP, stepL, if_neg h1, if_neg h2, if_pos h3]
    exact harg9.read_unread _
  iexists _; isplitr
  swap; · iexact H10
  ipureintro
  simp only [stepOut, stepO, stepP, stepL, if_neg h1, if_neg h2, if_pos h3]
  exact harg10.read_unread _

set_option maxHeartbeats 4000000 in
theorem run_FFF (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)
    (h1 : ¬c1 i) (h2 : ¬c2 i) (h3 : ¬c3 i)
    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  simp only [cc0__retention_kernel_eq_skeleton]; unfold cc0__retention_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6

  isplitl [H7]
  · iexists _; isplitr
    swap; · iexact H7
    ipureintro
    simp only [stepOut, stepO, stepP, stepL, if_neg h1, if_neg h2, if_neg h3]
    exact harg7.read_unread _
  isplitl [H8]
  · iexists _; isplitr
    swap; · iexact H8
    ipureintro
    simp only [stepOut, stepO, stepP, stepL, if_neg h1, if_neg h2, if_neg h3]
    exact harg8.read_unread _
  isplitl [H9]
  · iexists _; isplitr
    swap; · iexact H9
    ipureintro
    simp only [stepOut, stepO, stepP, stepL, if_neg h1, if_neg h2, if_neg h3]
    exact harg9.read_unread _
  iexists _; isplitr
  swap; · iexact H10
  ipureintro
  simp only [stepOut, stepO, stepP, stepL, if_neg h1, if_neg h2, if_neg h3]
  exact harg10.read_unread _

end Cert.KernelIdeal.Body
end
-- ==== Proof.KIBody.lean ====
import proofs.«156671_j46643344835366_1_alg».proof.Proof.KIBodyA
import proofs.«156671_j46643344835366_1_alg».proof.Proof.KIBodyB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body on any staging and scratch memrefs, at any grid point: it gives every buffer back one step on. By the eight
    settings of the three branch conditions. -/
theorem body_run (c : Dev nD) (i : grid0.Coords)
    (arg3 : Memref sig .tc .vmem S2x1x512x128 .f32) (harg3 : arg3.IsWhole) (arg4 : Memref sig .tc .vmem S2x1x512x128 .f32) (harg4 : arg4.IsWhole)
    (arg5 : Memref sig .tc .vmem S2x1x512x128 .f32) (harg5 : arg5.IsWhole) (arg6 : Memref sig .tc .vmem S1x1x512x512 .f32) (harg6 : arg6.IsWhole)
    (arg7 : Memref sig .tc .vmem S2x1x512x128 .f32) (harg7 : arg7.IsWhole) (arg8 : Memref sig .tc .vmem S2x512x128 .f32) (harg8 : arg8.IsWhole)
    (arg9 : Memref sig .tc .vmem S2x512x1 .f32) (harg9 : arg9.IsWhole) (arg10 : Memref sig .tc .vmem S512x1 .f32) (harg10 : arg10.IsWhole)

    (xq xk xv : Vec F S2x1x512x128 .f32) (xm : Vec F S1x1x512x512 .f32) (xout : Vec F S2x1x512x128 .f32)
    (xo : Vec F S2x512x128 .f32) (xp : Vec F S2x512x1 .f32) (xl : Vec F S512x1 .f32)
    (E : Set ℕ) (K : PUnit → sProp 𝕄) :
    iprop(owns (c : Thread nD τ) arg3 fullShare xq ∗ owns (c : Thread nD τ) arg4 fullShare xk ∗ owns (c : Thread nD τ) arg5 fullShare xv
        ∗ owns (c : Thread nD τ) arg6 fullShare xm ∗ owns (c : Thread nD τ) arg7 fullShare xout ∗ owns (c : Thread nD τ) arg8 fullShare xo
        ∗ owns (c : Thread nD τ) arg9 fullShare xp ∗ owns (c : Thread nD τ) arg10 fullShare xl
        ∗ (iprop(owns (c : Thread nD τ) arg3 fullShare xq ∗ owns (c : Thread nD τ) arg4 fullShare xk ∗ owns (c : Thread nD τ) arg5 fullShare xv
            ∗ owns (c : Thread nD τ) arg6 fullShare xm ∗ owns (c : Thread nD τ) arg7 fullShare (stepOut i xq xk xv xm xout xo xp xl)
            ∗ owns (c : Thread nD τ) arg8 fullShare (stepO i xq xk xv xm xo) ∗ owns (c : Thread nD τ) arg9 fullShare (stepP i xq xk xm xp)
            ∗ owns (c : Thread nD τ) arg10 fullShare (stepL i xm xl)) -∗ K ⟨⟩))
      ⊢ wp frame (wpE (defs₀ (F := F)) Variants.none c none) E (cc0__retention_kernel i arg3 harg3 arg4 harg4 arg5 harg5 arg6 harg6 arg7 harg7 arg8 harg8 arg9 harg9 arg10 harg10) K := by
  by_cases h1 : c1 i <;> by_cases h2 : c2 i <;> by_cases h3 : c3 i
  · exact run_TTT c i arg3 harg3 arg4 harg4 arg5 harg5 arg6 harg6 arg7 harg7 arg8 harg8 arg9 harg9 arg10 harg10 h1 h2 h3 xq xk xv xm xout xo xp xl E K
  · exact run_TTF c i arg3 harg3 arg4 harg4 arg5 harg5 arg6 harg6 arg7 harg7 arg8 harg8 arg9 harg9 arg10 harg10 h1 h2 h3 xq xk xv xm xout xo xp xl E K
  · exact run_TFT c i arg3 harg3 arg4 harg4 arg5 harg5 arg6 harg6 arg7 harg7 arg8 harg8 arg9 harg9 arg10 harg10 h1 h2 h3 xq xk xv xm xout xo xp xl E K
  · exact run_TFF c i arg3 harg3 arg4 harg4 arg5 harg5 arg6 harg6 arg7 harg7 arg8 harg8 arg9 harg9 arg10 harg10 h1 h2 h3 xq xk xv xm xout xo xp xl E K
  · exact run_FTT c i arg3 harg3 arg4 harg4 arg5 harg5 arg6 harg6 arg7 harg7 arg8 harg8 arg9 harg9 arg10 harg10 h1 h2 h3 xq xk xv xm xout xo xp xl E K
  · exact run_FTF c i arg3 harg3 arg4 harg4 arg5 harg5 arg6 harg6 arg7 harg7 arg8 harg8 arg9 harg9 arg10 harg10 h1 h2 h3 xq xk xv xm xout xo xp xl E K
  · exact run_FFT c i arg3 harg3 arg4 harg4 arg5 harg5 arg6 harg6 arg7 harg7 arg8 harg8 arg9 harg9 arg10 harg10 h1 h2 h3 xq xk xv xm xout xo xp xl E K
  · exact run_FFF c i arg3 harg3 arg4 harg4 arg5 harg5 arg6 harg6 arg7 harg7 arg8 harg8 arg9 harg9 arg10 harg10 h1 h2 h3 xq xk xv xm xout xo xp xl E K

end Cert.KernelIdeal.Body
end
-- ==== Proof.KIData.lean ====
import proofs.«156671_j46643344835366_1_alg».proof.Proof.KIStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid: point t is (head, row-block, column-block) = (t / 16, t / 4 % 4, t % 4) -/

theorem hc1 : ∀ t : Fin cfg0.N, c1 (grid0.coords t) ↔ t.val % 4 = 0 :=
  (by decide +kernel : ∀ t : Fin grid0.N, c1 (grid0.coords t) ↔ t.val % 4 = 0)
theorem hc2 : ∀ t : Fin cfg0.N, c2 (grid0.coords t) ↔ t.val % 4 ≤ t.val / 4 % 4 :=
  (by decide +kernel : ∀ t : Fin grid0.N, c2 (grid0.coords t) ↔ t.val % 4 ≤ t.val / 4 % 4)
theorem hc3 : ∀ t : Fin cfg0.N, c3 (grid0.coords t) ↔ t.val % 4 = t.val / 4 % 4 :=
  (by decide +kernel : ∀ t : Fin grid0.N, c3 (grid0.coords t) ↔ t.val % 4 = t.val / 4 % 4)

/-! ## The staging and scratch memrefs at a point -/

abbrev ms0 (t : Fin cfg0.N) : Memref sig .tc .vmem S2x1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x512x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1x512x128 .f32 := win0_4.stage (cfg0.slots t 4)
abbrev hs4 (t : Fin cfg0.N) : (ms4 t).IsWhole := hstage0_4 ((cfg0.slots t 4).cast nbuf0_4)
abbrev scM0 : Memref sig .tc .vmem S2x512x128 .f32 := Memref.whole cc0_scratch0
abbrev scM1 : Memref sig .tc .vmem S2x512x1 .f32 := Memref.whole cc0_scratch1
abbrev scM2 : Memref sig .tc .vmem S512x1 .f32 := Memref.whole cc0_scratch2

/-! ## What the three running sums and the output block's buffer hold after each point -/

/-- The running sums (numerator, row sums of the scores, row sums of the mask) after point `n`: one step from what
    the point before left; the first point resets them, so its start value is immaterial. -/
def stAt (c : Dev nD) : (n : ℕ) → n < cfg0.N → Vec F S2x512x128 .f32 × Vec F S2x512x1 .f32 × Vec F S512x1 .f32
  | 0, hn => (stepO (grid0.coords ⟨0, hn⟩) (iblk m c 0 ⟨0, hn⟩) (iblk m c 1 ⟨0, hn⟩) (iblk m c 2 ⟨0, hn⟩) (iblk m c 3 ⟨0, hn⟩) k0_pay1,
      stepP (grid0.coords ⟨0, hn⟩) (iblk m c 0 ⟨0, hn⟩) (iblk m c 1 ⟨0, hn⟩) (iblk m c 3 ⟨0, hn⟩) k0_pay2,
      stepL (grid0.coords ⟨0, hn⟩) (iblk m c 3 ⟨0, hn⟩) k0_pay3)
  | n + 1, hn =>
    (stepO (grid0.coords ⟨n + 1, hn⟩) (iblk m c 0 ⟨n + 1, hn⟩) (iblk m c 1 ⟨n + 1, hn⟩) (iblk m c 2 ⟨n + 1, hn⟩) (iblk m c 3 ⟨n + 1, hn⟩) (stAt c n (Nat.lt_of_succ_lt hn)).1,
      stepP (grid0.coords ⟨n + 1, hn⟩) (iblk m c 0 ⟨n + 1, hn⟩) (iblk m c 1 ⟨n + 1, hn⟩) (iblk m c 3 ⟨n + 1, hn⟩) (stAt c n (Nat.lt_of_succ_lt hn)).2.1,
      stepL (grid0.coords ⟨n + 1, hn⟩) (iblk m c 3 ⟨n + 1, hn⟩) (stAt c n (Nat.lt_of_succ_lt hn)).2.2)

theorem stAt_pos (c : Dev nD) (t : Fin cfg0.N) (ht : t.val ≠ 0) :
    stAt m c t.val t.isLt =
      (stepO (grid0.coords t) (iblk m c 0 t) (iblk m c 1 t) (iblk m c 2 t) (iblk m c 3 t) (stAt m c (t.val - 1) (Nat.lt_of_le_of_lt (Nat.sub_le _ _) t.isLt)).1,
        stepP (grid0.coords t) (iblk m c 0 t) (iblk m c 1 t) (iblk m c 3 t) (stAt m c (t.val - 1) (Nat.lt_of_le_of_lt (Nat.sub_le _ _) t.isLt)).2.1,
        stepL (grid0.coords t) (iblk m c 3 t) (stAt m c (t.val - 1) (Nat.lt_of_le_of_lt (Nat.sub_le _ _) t.isLt)).2.2) := by
  obtain ⟨n, hn⟩ := t
  cases n with
  | zero => exact absurd rfl ht
  | succ n => rfl

theorem stAt_zero (c : Dev nD) (t : Fin cfg0.N) (ht : t.val = 0) :
    stAt m c t.val t.isLt =
      (stepO (grid0.coords t) (iblk m c 0 t) (iblk m c 1 t) (iblk m c 2 t) (iblk m c 3 t) k0_pay1,
        stepP (grid0.coords t) (iblk m c 0 t) (iblk m c 1 t) (iblk m c 3 t) k0_pay2,
        stepL (grid0.coords t) (iblk m c 3 t) k0_pay3) := by
  obtain ⟨n, hn⟩ := t
  cases n with
  | zero => rfl
  | succ n => exact absurd ht (Nat.succ_ne_zero n)

/-- One step from ANY start that agrees with the point before (at the first point: from any start at all) gives the
    sums after the point. -/
theorem stepO_eq (c : Dev nD) (t : Fin cfg0.N) (xo : Vec F S2x512x128 .f32)
    (h : ∀ ht : t.val ≠ 0, xo = (stAt m c (t.val - 1) (Nat.lt_of_le_of_lt (Nat.sub_le _ _) t.isLt)).1) :
    stepO (grid0.coords t) (iblk m c 0 t) (iblk m c 1 t) (iblk m c 2 t) (iblk m c 3 t) xo = (stAt m c t.val t.isLt).1 := by
  by_cases ht : t.val = 0
  · rw [stAt_zero m c t ht]; exact stepO_of_c1 _ ((hc1 t).mpr (by rw [ht])) _ _ _ _ _ _
  · rw [stAt_pos m c t ht, h ht]
theorem stepP_eq (c : Dev nD) (t : Fin cfg0.N) (xp : Vec F S2x512x1 .f32)
    (h : ∀ ht : t.val ≠ 0, xp = (stAt m c (t.val - 1) (Nat.lt_of_le_of_lt (Nat.sub_le _ _) t.isLt)).2.1) :
    stepP (grid0.coords t) (iblk m c 0 t) (iblk m c 1 t) (iblk m c 3 t) xp = (stAt m c t.val t.isLt).2.1 := by
  by_cases ht : t.val = 0
  · rw [stAt_zero m c t ht]; exact stepP_of_c1 _ ((hc1 t).mpr (by rw [ht])) _ _ _ _ _
  · rw [stAt_pos m c t ht, h ht]
theorem stepL_eq (c : Dev nD) (t : Fin cfg0.N) (xl : Vec F S512x1 .f32)
    (h : ∀ ht : t.val ≠ 0, xl = (stAt m c (t.val - 1) (Nat.lt_of_le_of_lt (Nat.sub_le _ _) t.isLt)).2.2) :
    stepL (grid0.coords t) (iblk m c 3 t) xl = (stAt m c t.val t.isLt).2.2 := by
  by_cases ht : t.val = 0
  · rw [stAt_zero m c t ht]; exact stepL_of_c1 _ ((hc1 t).mpr (by rw [ht])) _ _ _
  · rw [stAt_pos m c t ht, h ht]

/-- The output block's staging buffer after point `n`: the normalised quotient of the sums where the column-block has
    reached the row-block's own, and from then on unchanged until the row-block's last point writes it back. (Before that
    point it is whatever the buffer held, which nothing reads.) -/
def outAt (c : Dev nD) : (n : ℕ) → n < cfg0.N → Vec F S2x1x512x128 .f32
  | 0, hn => k0_pay6 (stAt m c 0 hn).2.2 (stAt m c 0 hn).2.1 (stAt m c 0 hn).1
  | n + 1, hn =>
    if c3 (grid0.coords ⟨n + 1, hn⟩) then k0_pay6 (stAt m c (n + 1) hn).2.2 (stAt m c (n + 1) hn).2.1 (stAt m c (n + 1) hn).1
    else outAt c n (Nat.lt_of_succ_lt hn)

theorem outAt_c3 (c : Dev nD) (t : Fin cfg0.N) (h3 : c3 (grid0.coords t)) :
    outAt m c t.val t.isLt = k0_pay6 (stAt m c t.val t.isLt).2.2 (stAt m c t.val t.isLt).2.1 (stAt m c t.val t.isLt).1 := by
  obtain ⟨n, hn⟩ := t
  cases n with
  | zero => rfl
  | succ n => exact if_pos h3

theorem outAt_not_c3 (c : Dev nD) (t : Fin cfg0.N) (ht : t.val ≠ 0) (h3 : ¬c3 (grid0.coords t)) :
    outAt m c t.val t.isLt = outAt m c (t.val - 1) (Nat.lt_of_le_of_lt (Nat.sub_le _ _) t.isLt) := by
  obtain ⟨n, hn⟩ := t
  cases n with
  | zero => exact absurd rfl ht
  | succ n => exact if_neg h3

/-! ## The invariant between points and the proof data -/

/-- Before the first point the scratch buffers hold anything; after point `n` the three running sums. -/
def PhiS (c : Dev nD) : (n : ℕ) → n ≤ cfg0.N → sProp 𝕄
  | 0, _ => Pipeline.ΦA spec0 c
  | n + 1, hn => iprop(iprop(owns (c : Thread nD τ) scM0 fullShare ((stAt m c n hn).1) ∗ owns (c : Thread nD τ) scM1 fullShare ((stAt m c n hn).2.1)
      ∗ owns (c : Thread nD τ) scM2 fullShare ((stAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((stAt m c n hn).1) ∗ owns (c : Thread nD τ) scM1 fullShare ((stAt m c n hn).2.1)
      ∗ owns (c : Thread nD τ) scM2 fullShare ((stAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((stAt m c (n - 1) (by omega)).1) ∗ owns (c : Thread nD τ) scM1 fullShare ((stAt m c (n - 1) (by omega)).2.1)
      ∗ owns (c : Thread nD τ) scM2 fullShare ((stAt m c (n - 1) (by omega)).2.2)) ∗ (∃ r, prngReg c r)) := by
  cases n with
  | zero => exact absurd rfl hz
  | succ n => rfl

/-- The proof data of the one pipeline on core `c`: the arrays as the region finds them; after the body each input's
    buffer at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

end Cert.KernelIdeal.Body
end
-- ==== Proof.KIFrame.lean ====
import proofs.«156671_j46643344835366_1_alg».proof.Proof.KIBody
import proofs.«156671_j46643344835366_1_alg».proof.Proof.KIData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each staging buffer holds when the body runs -/

theorem before0 (c : Dev nD) (t : Fin cfg0.N) (d) : (dats m 0 c).before 0 t d = iblk m c 0 t :=
  before0_0_of m (dats m 0 c) (A_eq m c 0) (after0_0 m c) t d
theorem before1 (c : Dev nD) (t : Fin cfg0.N) (d) : (dats m 0 c).before 1 t d = iblk m c 1 t :=
  before0_1_of m (dats m 0 c) (A_eq m c 1) (after0_1 m c) t d
theorem before2 (c : Dev nD) (t : Fin cfg0.N) (d) : (dats m 0 c).before 2 t d = iblk m c 2 t :=
  before0_2_of m (dats m 0 c) (A_eq m c 2) (after0_2 m c) t d
theorem before3 (c : Dev nD) (t : Fin cfg0.N) (d) : (dats m 0 c).before 3 t d = iblk m c 3 t :=
  before0_3_of m (dats m 0 c) (A_eq m c 3) (after0_3 m c) t d

/-- The output window is idle exactly where the third condition fails. -/
theorem idle4_of_c3 (t : Fin cfg0.N) (h : c3 (grid0.coords t)) : cfg0.idle 4 (grid0.coords t) = false := by
  show (!(k0_cond3 (grid0.coords t) == 1#1)) = false
  rw [h]; rfl
theorem idle4_of_not_c3 (t : Fin cfg0.N) (h : ¬c3 (grid0.coords t)) : cfg0.idle 4 (grid0.coords t) = true := by
  show (!(k0_cond3 (grid0.coords t) == 1#1)) = true
  rw [Bool.not_eq_true', beq_eq_false_iff_ne]; exact h

/-- The output window is uncut: what the body left in its buffer is all of it. -/
theorem kept4 (c : Dev nD) (t : Fin cfg0.N) (d) : (dats m 0 c).kept 4 t d = outAt m c t.val t.isLt := by
  unfold Dat.kept
  rw [Pipeline.fill_of_clip_none 4 _ (fun _ => rfl) d ((dats m 0 c).after 4 t), Window.fill_cut, after0_4]

/-- At a point whose column-block is past the row-block's own, the output's buffer still holds what the point before left:
    nothing was written back in between, and the points in between store nothing into it. -/
theorem before4_run (c : Dev nD) : ∀ (n : ℕ) (hn : n < cfg0.N), n / 4 % 4 < n % 4 → ∀ d,
    (dats m 0 c).before 4 ⟨n, hn⟩ d = outAt m c (n - 1) (Nat.lt_of_le_of_lt (Nat.sub_le _ _) hn) := by
  intro n
  induction n with
  | zero => intro hn h; exact absurd h (by decide)
  | succ n ih =>
    intro hn h d
    have hn' : n < cfg0.N := Nat.lt_of_succ_lt hn
    have hfl : (cfg0.win 4).flush ⟨n, hn'⟩ = false := Bool.eq_false_iff.mpr fun hf => by
      have := (flush0_4 ⟨n, hn'⟩).mp hf; dsimp only at this; omega
    rw [(dats m 0 c).before_of_pos 4 ⟨n + 1, hn⟩ (Nat.succ_ne_zero n) ((cfg0.win 4).fetch_out rfl _)]
    show (if (cfg0.win 4).flush ⟨n, hn'⟩ = true then d else (dats m 0 c).left 4 ⟨n, hn'⟩ d) = outAt m c n hn'
    rw [hfl, if_neg Bool.false_ne_true]
    unfold Dat.left
    by_cases h3 : c3 (grid0.coords ⟨n, hn'⟩)
    · rw [idle4_of_c3 ⟨n, hn'⟩ h3]; exact kept4 m c ⟨n, hn'⟩ d
    · rw [idle4_of_not_c3 ⟨n, hn'⟩ h3]
      have h3' := (hc3 ⟨n, hn'⟩).not.mp h3
      dsimp only at h3'
      have hn0 : n ≠ 0 := by omega
      show (dats m 0 c).before 4 ⟨n, hn'⟩ d = outAt m c n hn'
      rw [ih hn' (by omega) d]
      exact (outAt_not_c3 m c ⟨n, hn'⟩ hn0 h3).symm

/-- What the body leaves in the output's buffer is what the window's obligation asks at the point: the quotient where it
    stores; the untouched buffer where the point neither stores nor writes back; and at a row-block's last point, where the
    block is written back without a store, the quotient stored earlier and kept since. -/
theorem out_leaves (c : Dev nD) (t : Fin cfg0.N) (xo : Vec F S2x512x128 .f32) (xp : Vec F S2x512x1 .f32) (xl : Vec F S512x1 .f32) (d)
    (hO : stepO (grid0.coords t) (iblk m c 0 t) (iblk m c 1 t) (iblk m c 2 t) (iblk m c 3 t) xo = (stAt m c t.val t.isLt).1)
    (hP : stepP (grid0.coords t) (iblk m c 0 t) (iblk m c 1 t) (iblk m c 3 t) xp = (stAt m c t.val t.isLt).2.1)
    (hL : stepL (grid0.coords t) (iblk m c 3 t) xl = (stAt m c t.val t.isLt).2.2) :
    owns (c : Thread nD τ) (ms4 t) fullShare (stepOut (grid0.coords t) (iblk m c 0 t) (iblk m c 1 t) (iblk m c 2 t) (iblk m c 3 t) ((dats m 0 c).before 4 t d) xo xp xl)
      ⊢ (dats m 0 c).leavesExact 4 t := by
  by_cases h3 : c3 (grid0.coords t)
  · rw [show (dats m 0 c).leavesExact 4 t = owns (c : Thread nD τ) (ms4 t) fullShare ((dats m 0 c).after 4 t) from by
      unfold Dat.leavesExact; rw [idle4_of_c3 t h3], after0_4, outAt_c3 m c t h3]
    unfold stepOut; rw [if_pos h3, hO, hP, hL]
  · unfold stepOut; rw [if_neg h3]
    by_cases hf : t.val % 4 = 3
    · have hfl : (cfg0.win 4).flush t = true := (flush0_4 t).mpr hf
      rw [show (dats m 0 c).leavesExact 4 t = owns (c : Thread nD τ) (ms4 t) fullShare ((dats m 0 c).after 4 t) from by
        unfold Dat.leavesExact; rw [idle4_of_not_c3 t h3, hfl], after0_4]
      have h3' := (hc3 t).not.mp h3
      have ht0 : t.val ≠ 0 := by omega
      rw [show (dats m 0 c).before 4 t d = (dats m 0 c).before 4 ⟨t.val, t.isLt⟩ d from rfl,
        before4_run m c t.val t.isLt (by omega) d, outAt_not_c3 m c t ht0 h3]
    · have hfl : (cfg0.win 4).flush t = false := Bool.eq_false_iff.mpr fun h => hf ((flush0_4 t).mp h)
      rw [Dat.leavesExact_idle (dats m 0 c) 4 t (idle4_of_not_c3 t h3) hfl]
      iintro H; iexists _; iexact H

/-- The class invariant with the three scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the scratch buffers hold the running sums the point before
    left (anything at the first point, which resets them); the run gives them back one step on, and the output's buffer as
    `out_leaves` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after0_0]
  rw [show (dats m 0 c).leavesExact 1 t = owns (c : Thread nD τ) (ms1 t) fullShare ((dats m 0 c).after 1 t) from rfl, after0_1]
  rw [show (dats m 0 c).leavesExact 2 t = owns (c : Thread nD τ) (ms2 t) fullShare ((dats m 0 c).after 2 t) from rfl, after0_2]
  rw [show (dats m 0 c).leavesExact 3 t = owns (c : Thread nD τ) (ms3 t) fullShare ((dats m 0 c).after 3 t) from rfl, after0_3]
  rw [PhiS_castSucc m c t]
  by_cases hz : t.val = 0
  · rw [PhiS_zero m c _ _ hz, PhiA0_eq]
    iintro ⟨⟨⟨⟨%xo, HS0⟩, ⟨%xp, HS1⟩, ⟨%xl, HS2⟩⟩, Hg⟩, Ho, ⟨%d0, H0⟩, ⟨%d1, H1⟩, ⟨%d2, H2⟩, ⟨%d3, H3⟩, ⟨%d4, H4⟩⟩
    have hO := stepO_eq m c t xo (fun ht => absurd hz ht)
    have hP := stepP_eq m c t xp (fun ht => absurd hz ht)
    have hL := stepL_eq m c t xl (fun ht => absurd hz ht)
    rw [← hO, ← hP, ← hL]
    iapply (body_run c (grid0.coords t) (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (iblk m c 0 t) (iblk m c 1 t) (iblk m c 2 t) (iblk m c 3 t) ((dats m 0 c).before 4 t d4) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (out_leaves m c t _ _ _ d4 hO hP hL)
    iexact H4
  · rw [PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩⟩
    have hO := stepO_eq m c t _ (fun _ => rfl)
    have hP := stepP_eq m c t _ (fun _ => rfl)
    have hL := stepL_eq m c t _ (fun _ => rfl)
    rw [← hO, ← hP, ← hL]
    iapply (body_run c (grid0.coords t) (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (iblk m c 0 t) (iblk m c 1 t) (iblk m c 2 t) (iblk m c 3 t) ((dats m 0 c).before 4 t d4) _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    iintro ⟨H0, H1, H2, H3, H4, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    iapply (out_leaves m c t _ _ _ d4 hO hP hL)
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body
end
-- ==== Proof.Spec.lean ====
/-
  The two programs as one formula each, over the extended reals.

  Arrays: q, k, v indexed (batch b, head h, position i, feature d); the decay mask M indexed (head h, row i, column j).
  The kernel walks the 2048 columns in four blocks of 512 and, for the rows of row-block n = i / 512, adds up only the
  column-blocks 0 … n (`psum`); the reference adds up all 2048 columns and divides q by the mask's row sum first.
-/
import Idealize.ShloMosaic.PureOps.Ideal

noncomputable section

open Idealize.ShloMosaic

namespace Cert.Spec

abbrev QKV := Fin 2 → Fin 16 → Fin 2048 → Fin 128 → EReal
abbrev MSK := Fin 16 → Fin 2048 → Fin 2048 → EReal

/-- Column `jj` of column-block `kj`. -/
def jOf (kj : Fin 4) (jj : Fin 512) : Fin 2048 := ⟨512 * kj.val + jj.val, by omega⟩

/-- The sum of the terms of the blocks `0 … n`. -/
def psum (f : Fin 4 → EReal) (n : ℕ) : EReal := ∑ x : Fin 4, if x.val ≤ n then f x else 0

/-- q·kᵀ at (i, j). -/
def raw (q k : QKV) (b : Fin 2) (h : Fin 16) (i j : Fin 2048) : EReal := ∑ dd : Fin 128, q b h i dd * k b h j dd

/-- The masked score. -/
def sc (q k : QKV) (M : MSK) (b : Fin 2) (h : Fin 16) (i j : Fin 2048) : EReal := raw q k b h i j * M h i j

/-- One column-block's contribution to the three running sums of the kernel. -/
def blkO (q k v : QKV) (M : MSK) (b : Fin 2) (h : Fin 16) (i : Fin 2048) (d : Fin 128) (kj : Fin 4) : EReal :=
  ∑ jj : Fin 512, sc q k M b h i (jOf kj jj) * v b h (jOf kj jj) d
def blkP (q k : QKV) (M : MSK) (b : Fin 2) (h : Fin 16) (i : Fin 2048) (kj : Fin 4) : EReal :=
  ∑ jj : Fin 512, sc q k M b h i (jOf kj jj)
def blkL (M : MSK) (h : Fin 16) (i : Fin 2048) (kj : Fin 4) : EReal :=
  ∑ jj : Fin 512, M h i (jOf kj jj)

/-- What the kernel leaves at (b, h, i, d): the three running sums over the column-blocks up to the row's own, then
    `(O / L) / max(|P / L|, 1)`. -/
def kerVal (q k v : QKV) (M : MSK) (b : Fin 2) (h : Fin 16) (i : Fin 2048) (d : Fin 128) : EReal :=
  let n := i.val / 512
  let L := psum (blkL M h i) n
  let P := Ideal.div (psum (blkP q k M b h i) n) L
  Ideal.div (Ideal.div (psum (blkO q k v M b h i d) n) L) (max (max P (-P)) 1)

/-- The mask's row sum, as the reference takes it (the sum's initial value first). -/
def refL (M : MSK) (h : Fin 16) (i : Fin 2048) : EReal := 0 + ∑ j : Fin 2048, M h i j

/-- The reference's score: (q / L)·kᵀ times the mask. -/
def refS (q k : QKV) (M : MSK) (b : Fin 2) (h : Fin 16) (i j : Fin 2048) : EReal :=
  (∑ dd : Fin 128, Ideal.div (q b h i dd) (refL M h i) * k b h j dd) * M h i j

/-- What the reference returns at (b, h, i, d). -/
def refVal (q k v : QKV) (M : MSK) (b : Fin 2) (h : Fin 16) (i : Fin 2048) (d : Fin 128) : EReal :=
  let S := 0 + ∑ j : Fin 2048, refS q k M b h i j
  Ideal.div (∑ j : Fin 2048, refS q k M b h i j * v b h j d) (max 1 (max S (-S)))

end Cert.Spec

end
-- ==== Proof.KIValDefs.lean ====
import proofs.«156671_j46643344835366_1_alg».proof.Proof.KIData
import proofs.«156671_j46643344835366_1_alg».proof.Proof.Spec
import Idealize.ShloMosaic.Lib.ValueIdx

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ)

/-- The four argument arrays, as the region finds them on core `c`, as functions of their coordinates. -/
def Q (c : Dev nD) : Cert.Spec.QKV := fun b h i d => (V m c main_arg0 : S2x16x2048x128.Idx → EReal) (ix4 b h i d)
def K (c : Dev nD) : Cert.Spec.QKV := fun b h i d => (V m c main_arg1 : S2x16x2048x128.Idx → EReal) (ix4 b h i d)
def W (c : Dev nD) : Cert.Spec.QKV := fun b h i d => (V m c main_arg2 : S2x16x2048x128.Idx → EReal) (ix4 b h i d)
def M (c : Dev nD) : Cert.Spec.MSK := fun h i j => (V m c main_arg3 : S1x16x2048x2048.Idx → EReal) (ix4 (0 : Fin 1) h i j)

/-- The kernel's result array as one function of its index. -/
def G (c : Dev nD) : S2x16x2048x128.Idx → EReal :=
  fun j => Cert.Spec.kerVal (Q m c) (K m c) (W m c) (M m c) (j 0) (j 1) (j 2) (j 3)

/-- Row `ii` of row-block (or column-block) `n`. -/
def rowOf (n : ℕ) (hn : n < 4) (ii : Fin 512) : Fin 2048 := ⟨512 * n + ii.val, by omega⟩
/-- The head of grid point `t`. -/
def headOf (t : Fin cfg0.N) : Fin 16 := ⟨t.val / 16, by have : cfg0.N = 256 := N_0; have := t.isLt; omega⟩

end Cert.KernelIdeal.Val
end
-- ==== Proof.PayIdeal.lean ====
/-
  The kernel body's arithmetic read at one index, over the extended reals.

  Each payload of the blocked retention step is a composition of pointwise operations, layout operations (shape
  casts that add or drop a unit axis, broadcasts along unit axes), two batched matrix products into a zero
  accumulator and two lane sums. Read at an index written by its coordinates, a layout operation moves the
  coordinates, a matrix product is the sum over the contracted coordinate of the products of the operands, and a
  lane sum is the sum over the reduced coordinate. The statements below give every payload at an index as a
  formula in the entries of the blocks it reads.
-/
import proofs.«156671_j46643344835366_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Shape casts and broadcasts along unit axes, at an index given by coordinates

A shape cast keeps the row-major position, so adding or dropping an axis of extent one keeps the other
coordinates; a broadcast along an axis of extent one reads the operand at coordinate zero there. -/

section Layout
variable {α : Type}

/-- `[1, 1, a, b]` viewed as `[a, b]`: entry `(i, j)` is the operand's `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- `[m, 1, a, b]` viewed as `[m, a, b]`: entry `(p, i, j)` is the operand's `(p, 0, i, j)`. -/
theorem shapeCast_m1ab_mab_apply {m a b : ℕ} (x : (⟨4, ![m, 1, a, b]⟩ : Shape).Idx → α)
    (h : (⟨4, ![m, 1, a, b]⟩ : Shape).ShapeCasts ⟨3, ![m, a, b]⟩) (p : Fin m) (i : Fin a) (j : Fin b) :
    shapeCast ⟨3, ![m, a, b]⟩ x h (ix3 p i j) = x (ix4 p (0 : Fin 1) i j) :=
  shapeCast_apply x h _ _ (by
    rw [Shape.rowMajor_val_four, Shape.rowMajor_val_three]
    show ((p.val * 1 + 0) * a + i.val) * b + j.val = (p.val * a + i.val) * b + j.val
    simp only [Nat.mul_one, Nat.add_zero])

/-- `[m, a, b]` viewed as `[m, 1, a, b]`: entry `(p, u, i, j)` is the operand's `(p, i, j)`. -/
theorem shapeCast_mab_m1ab_apply {m a b : ℕ} (x : (⟨3, ![m, a, b]⟩ : Shape).Idx → α)
    (h : (⟨3, ![m, a, b]⟩ : Shape).ShapeCasts ⟨4, ![m, 1, a, b]⟩) (p : Fin m) (u : Fin 1) (i : Fin a) (j : Fin b) :
    shapeCast ⟨4, ![m, 1, a, b]⟩ x h (ix4 p u i j) = x (ix3 p i j) :=
  shapeCast_apply x h _ _ (by
    have hu : u.val = 0 := by omega
    rw [Shape.rowMajor_val_four, Shape.rowMajor_val_three]
    show (p.val * a + i.val) * b + j.val = ((p.val * 1 + u.val) * a + i.val) * b + j.val
    rw [hu]; simp only [Nat.mul_one, Nat.add_zero])

/-- `[m, a]` viewed as the column stack `[m, a, 1]`: entry `(p, i, u)` is the operand's `(p, i)`. -/
theorem shapeCast_ma_ma1_apply {m a : ℕ} (x : (⟨2, ![m, a]⟩ : Shape).Idx → α)
    (h : (⟨2, ![m, a]⟩ : Shape).ShapeCasts ⟨3, ![m, a, 1]⟩) (p : Fin m) (i : Fin a) (u : Fin 1) :
    shapeCast ⟨3, ![m, a, 1]⟩ x h (ix3 p i u) = x (ix2 p i) :=
  shapeCast_apply x h _ _ (by
    have hu : u.val = 0 := by omega
    rw [Shape.rowMajor_val_three, Shape.rowMajor_val_two]
    show p.val * a + i.val = (p.val * a + i.val) * 1 + u.val
    rw [hu]; simp only [Nat.mul_one, Nat.add_zero])

/-- `[a]` viewed as the column `[a, 1]`: entry `(i, u)` is the operand's `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; simp only [Nat.mul_one, Nat.add_zero])

end Layout

/-! ## The four broadcasts of the body, at their shapes -/

section Broadcasts
variable {α : Type}

/-- One `[512, 512]` matrix repeated over the batch: entry `(p, i, j)` is the operand's `(0, i, j)`. -/
theorem broadcastTo_1ab_2ab_apply (x : S1x512x512.Idx → α) (h : S1x512x512.Broadcasts S2x512x512)
    (p : Fin 2) (i j : Fin 512) : broadcastTo S2x512x512 x h (ix3 p i j) = x (ix3 (0 : Fin 1) i j) :=
  broadcastTo_apply x h _ _ fun ax => by
    match ax with
    | ⟨0, _⟩ => rfl
    | ⟨1, _⟩ => rfl
    | ⟨2, _⟩ => rfl

/-- One column repeated over the batch: entry `(p, i, u)` is the operand's `(0, i, 0)`. -/
theorem broadcastTo_1a1_2a1_apply (x : S1x512x1.Idx → α) (h : S1x512x1.Broadcasts S2x512x1)
    (p : Fin 2) (i : Fin 512) (u : Fin 1) : broadcastTo S2x512x1 x h (ix3 p i u) = x (ix3 (0 : Fin 1) i (0 : Fin 1)) :=
  broadcastTo_apply x h _ _ fun ax => by
    match ax with
    | ⟨0, _⟩ => rfl
    | ⟨1, _⟩ => rfl
    | ⟨2, _⟩ => rfl

/-- One column repeated over the batch and along the rows: entry `(p, i, d)` is the operand's `(0, i, 0)`. -/
theorem broadcastTo_1a1_2ab_apply (x : S1x512x1.Idx → α) (h : S1x512x1.Broadcasts S2x512x128)
    (p : Fin 2) (i : Fin 512) (d : Fin 128) : broadcastTo S2x512x128 x h (ix3 p i d) = x (ix3 (0 : Fin 1) i (0 : Fin 1)) :=
  broadcastTo_apply x h _ _ fun ax => by
    match ax with
    | ⟨0, _⟩ => rfl
    | ⟨1, _⟩ => rfl
    | ⟨2, _⟩ => rfl

/-- A stack of columns repeated along the rows: entry `(p, i, d)` is the operand's `(p, i, 0)`. -/
theorem broadcastTo_2a1_2ab_apply (x : S2x512x1.Idx → α) (h : S2x512x1.Broadcasts S2x512x128)
    (p : Fin 2) (i : Fin 512) (d : Fin 128) : broadcastTo S2x512x128 x h (ix3 p i d) = x (ix3 p i (0 : Fin 1)) :=
  broadcastTo_apply x h _ _ fun ax => by
    match ax with
    | ⟨0, _⟩ => rfl
    | ⟨1, _⟩ => rfl
    | ⟨2, _⟩ => rfl

end Broadcasts

/-- The word `0x3F800000` is the number one. -/
theorem ofBits_one_f32 : Ideal.ofBits .f32 0x3F800000#32 = 1 := IdealRules.sign_bit.ideal_onePat .f32

/-! ## The payloads that only cast or splat -/

theorem pay1_apply (j : S2x512x128.Idx) : k0_pay1 (F := Ideal) j = 0 := by
  unfold Gen.k0_pay1
  rw [shapeCast_self]
  exact Ideal.ofBits_zero_f32

theorem pay2_apply (j : S2x512x1.Idx) : k0_pay2 (F := Ideal) j = 0 := by
  unfold Gen.k0_pay2
  rw [shapeCast_self]
  exact Ideal.ofBits_zero_f32

theorem pay3_apply (j : S512x1.Idx) : k0_pay3 (F := Ideal) j = 0 := by
  unfold Gen.k0_pay3
  rw [shapeCast_self]
  exact Ideal.ofBits_zero_f32

theorem pay4_apply (x : FVec Ideal S2x512x1 .f32) (j : S2x512x1.Idx) : k0_pay4 x j = x j := by
  unfold Gen.k0_pay4
  rw [shapeCast_self]

/-- The mask block as a matrix: entry `(ii, jj)` is the block's `(0, 0, ii, jj)`. -/
theorem pay7_apply (mk : Vec Ideal S1x1x512x512 .f32) (ii jj : Fin 512) :
    k0_pay7 mk (ix2 ii jj) = mk (ix4 (0 : Fin 1) (0 : Fin 1) ii jj) := by
  unfold Gen.k0_pay7
  exact shapeCast_11ab_ab_apply mk _ ii jj

/-! ## The two matrix products into a zero accumulator

The first contracts the feature axis of two `[2, 512, 128]` operands, batch by batch, into `[2, 512, 512]`; the
second contracts the column axis of a `[2, 512, 512]` operand with the position axis of a `[2, 512, 128]` one
into `[2, 512, 128]`. Each operand index is read off the dimension numbers one axis at a time, and the sum over
the one-axis contraction shape is re-indexed by its one coordinate. -/

theorem qk_lhs_0 (i : S2x512x512.Idx) (c : dot_S2x512x128_S2x512x128_S2x512x512_2_2_1_1_0_0.contr.Idx) :
    (dot_S2x512x128_S2x512x128_S2x512x512_2_2_1_1_0_0.lhsIdx i c 0).val = (i 0).val := by
  unfold DotDims.lhsIdx
  rw [dif_pos (show (0 : Fin S2x512x128.rank) ∈ dot_S2x512x128_S2x512x128_S2x512x512_2_2_1_1_0_0.lhsBatch by decide)]
  rfl
theorem qk_lhs_1 (i : S2x512x512.Idx) (c : dot_S2x512x128_S2x512x128_S2x512x512_2_2_1_1_0_0.contr.Idx) :
    (dot_S2x512x128_S2x512x128_S2x512x512_2_2_1_1_0_0.lhsIdx i c 1).val = (i 1).val := by
  unfold DotDims.lhsIdx
  rw [dif_neg (show ¬(1 : Fin S2x512x128.rank) ∈ dot_S2x512x128_S2x512x128_S2x512x512_2_2_1_1_0_0.lhsBatch by decide), dif_pos (show (1 : Fin S2x512x128.rank) ∈ dot_S2x512x128_S2x512x128_S2x512x512_2_2_1_1_0_0.lhsNonContracting by decide)]
  rfl
theorem qk_lhs_2 (i : S2x512x512.Idx) (c : dot_S2x512x128_S2x512x128_S2x512x512_2_2_1_1_0_0.contr.Idx) :
    (dot_S2x512x128_S2x512x128_S2x512x512_2_2_1_1_0_0.lhsIdx i c 2).val = (c ⟨0, by decide⟩).val :=
  dot_S2x512x128_S2x512x128_S2x512x512_2_2_1_1_0_0.lhsIdx_val_of_single rfl i c
theorem qk_rhs_0 (i : S2x512x512.Idx) (c : dot_S2x512x128_S2x512x128_S2x512x512_2_2_1_1_0_0.contr.Idx) :
    (dot_S2x512x128_S2x512x128_S2x512x512_2_2_1_1_0_0.rhsIdx i c 0).val = (i 0).val := by
  unfold DotDims.rhsIdx
  rw [dif_pos (show (0 : Fin S2x512x128.rank) ∈ dot_S2x512x128_S2x512x128_S2x512x512_2_2_1_1_0_0.rhsBatch by decide)]
  rfl
theorem qk_rhs_1 (i : S2x512x512.Idx) (c : dot_S2x512x128_S2x512x128_S2x512x512_2_2_1_1_0_0.contr.Idx) :
    (dot_S2x512x128_S2x512x128_S2x512x512_2_2_1_1_0_0.rhsIdx i c 1).val = (i 2).val := by
  unfold DotDims.rhsIdx
  rw [dif_neg (show ¬(1 : Fin S2x512x128.rank) ∈ dot_S2x512x128_S2x512x128_S2x512x512_2_2_1_1_0_0.rhsBatch by decide), dif_pos (show (1 : Fin S2x512x128.rank) ∈ dot_S2x512x128_S2x512x128_S2x512x512_2_2_1_1_0_0.rhsNonContracting by decide)]
  rfl
theorem qk_rhs_2 (i : S2x512x512.Idx) (c : dot_S2x512x128_S2x512x128_S2x512x512_2_2_1_1_0_0.contr.Idx) :
    (dot_S2x512x128_S2x512x128_S2x512x512_2_2_1_1_0_0.rhsIdx i c 2).val = (c ⟨0, by decide⟩).val :=
  dot_S2x512x128_S2x512x128_S2x512x512_2_2_1_1_0_0.rhsIdx_val_of_single rfl i c

/-- The first product at `(b, ii, jj)`: the sum over the feature `dd` of left `(b, ii, dd)` times right `(b, jj, dd)`. -/
theorem matmul_qk {φ₁ φ₂ : FTy} (x : FVec Ideal S2x512x128 φ₁) (y : FVec Ideal S2x512x128 φ₂) (b : Fin 2) (ii jj : Fin 512) :
    FloatOps.matmul dot_S2x512x128_S2x512x128_S2x512x512_2_2_1_1_0_0 none x y (constant (F := Ideal) S2x512x512 .f32 0x00000000#32) (ix3 b ii jj)
      = ∑ dd : Fin 128, x (ix3 b ii dd) * y (ix3 b jj dd) := by
  rw [Ideal.matmul_constant_zero_apply, ← Equiv.sum_comp (contrEquiv1 dot_S2x512x128_S2x512x128_S2x512x512_2_2_1_1_0_0 128 rfl rfl).symm]
  refine Finset.sum_congr rfl fun dd _ => ?_
  have hk := contrEquiv1_symm_val dot_S2x512x128_S2x512x128_S2x512x512_2_2_1_1_0_0 128 rfl rfl dd
  have el : dot_S2x512x128_S2x512x128_S2x512x512_2_2_1_1_0_0.lhsIdx (ix3 b ii jj) ((contrEquiv1 dot_S2x512x128_S2x512x128_S2x512x512_2_2_1_1_0_0 128 rfl rfl).symm dd) = ix3 b ii dd := funext fun a => Fin.ext (by
    match a with
    | ⟨0, _⟩ => exact qk_lhs_0 _ _
    | ⟨1, _⟩ => exact qk_lhs_1 _ _
    | ⟨2, _⟩ => exact (qk_lhs_2 _ _).trans hk)
  have er : dot_S2x512x128_S2x512x128_S2x512x512_2_2_1_1_0_0.rhsIdx (ix3 b ii jj) ((contrEquiv1 dot_S2x512x128_S2x512x128_S2x512x512_2_2_1_1_0_0 128 rfl rfl).symm dd) = ix3 b jj dd := funext fun a => Fin.ext (by
    match a with
    | ⟨0, _⟩ => exact qk_rhs_0 _ _
    | ⟨1, _⟩ => exact qk_rhs_1 _ _
    | ⟨2, _⟩ => exact (qk_rhs_2 _ _).trans hk)
  rw [el, er]

theorem sv_lhs_0 (i : S2x512x128.Idx) (c : dot_S2x512x512_S2x512x128_S2x512x128_2_1_1_2_0_0.contr.Idx) :
    (dot_S2x512x512_S2x512x128_S2x512x128_2_1_1_2_0_0.lhsIdx i c 0).val = (i 0).val := by
  unfold DotDims.lhsIdx
  rw [dif_pos (show (0 : Fin S2x512x512.rank) ∈ dot_S2x512x512_S2x512x128_S2x512x128_2_1_1_2_0_0.lhsBatch by decide)]
  rfl
theorem sv_lhs_1 (i : S2x512x128.Idx) (c : dot_S2x512x512_S2x512x128_S2x512x128_2_1_1_2_0_0.contr.Idx) :
    (dot_S2x512x512_S2x512x128_S2x512x128_2_1_1_2_0_0.lhsIdx i c 1).val = (i 1).val := by
  unfold DotDims.lhsIdx
  rw [dif_neg (show ¬(1 : Fin S2x512x512.rank) ∈ dot_S2x512x512_S2x512x128_S2x512x128_2_1_1_2_0_0.lhsBatch by decide), dif_pos (show (1 : Fin S2x512x512.rank) ∈ dot_S2x512x512_S2x512x128_S2x512x128_2_1_1_2_0_0.lhsNonContracting by decide)]
  rfl
theorem sv_lhs_2 (i : S2x512x128.Idx) (c : dot_S2x512x512_S2x512x128_S2x512x128_2_1_1_2_0_0.contr.Idx) :
    (dot_S2x512x512_S2x512x128_S2x512x128_2_1_1_2_0_0.lhsIdx i c 2).val = (c ⟨0, by decide⟩).val :=
  dot_S2x512x512_S2x512x128_S2x512x128_2_1_1_2_0_0.lhsIdx_val_of_single rfl i c
theorem sv_rhs_0 (i : S2x512x128.Idx) (c : dot_S2x512x512_S2x512x128_S2x512x128_2_1_1_2_0_0.contr.Idx) :
    (dot_S2x512x512_S2x512x128_S2x512x128_2_1_1_2_0_0.rhsIdx i c 0).val = (i 0).val := by
  unfold DotDims.rhsIdx
  rw [dif_pos (show (0 : Fin S2x512x128.rank) ∈ dot_S2x512x512_S2x512x128_S2x512x128_2_1_1_2_0_0.rhsBatch by decide)]
  rfl
theorem sv_rhs_1 (i : S2x512x128.Idx) (c : dot_S2x512x512_S2x512x128_S2x512x128_2_1_1_2_0_0.contr.Idx) :
    (dot_S2x512x512_S2x512x128_S2x512x128_2_1_1_2_0_0.rhsIdx i c 1).val = (c ⟨0, by decide⟩).val :=
  dot_S2x512x512_S2x512x128_S2x512x128_2_1_1_2_0_0.rhsIdx_val_of_single rfl i c
theorem sv_rhs_2 (i : S2x512x128.Idx) (c : dot_S2x512x512_S2x512x128_S2x512x128_2_1_1_2_0_0.contr.Idx) :
    (dot_S2x512x512_S2x512x128_S2x512x128_2_1_1_2_0_0.rhsIdx i c 2).val = (i 2).val := by
  unfold DotDims.rhsIdx
  rw [dif_neg (show ¬(2 : Fin S2x512x128.rank) ∈ dot_S2x512x512_S2x512x128_S2x512x128_2_1_1_2_0_0.rhsBatch by decide), dif_pos (show (2 : Fin S2x512x128.rank) ∈ dot_S2x512x512_S2x512x128_S2x512x128_2_1_1_2_0_0.rhsNonContracting by decide)]
  rfl

/-- The second product at `(b, ii, d)`: the sum over the column `jj` of left `(b, ii, jj)` times right `(b, jj, d)`. -/
theorem matmul_sv {φ₁ φ₂ : FTy} (x : FVec Ideal S2x512x512 φ₁) (y : FVec Ideal S2x512x128 φ₂) (b : Fin 2) (ii : Fin 512) (d : Fin 128) :
    FloatOps.matmul dot_S2x512x512_S2x512x128_S2x512x128_2_1_1_2_0_0 none x y (constant (F := Ideal) S2x512x128 .f32 0x00000000#32) (ix3 b ii d)
      = ∑ jj : Fin 512, x (ix3 b ii jj) * y (ix3 b jj d) := by
  rw [Ideal.matmul_constant_zero_apply, ← Equiv.sum_comp (contrEquiv1 dot_S2x512x512_S2x512x128_S2x512x128_2_1_1_2_0_0 512 rfl rfl).symm]
  refine Finset.sum_congr rfl fun jj _ => ?_
  have hk := contrEquiv1_symm_val dot_S2x512x512_S2x512x128_S2x512x128_2_1_1_2_0_0 512 rfl rfl jj
  have el : dot_S2x512x512_S2x512x128_S2x512x128_2_1_1_2_0_0.lhsIdx (ix3 b ii d) ((contrEquiv1 dot_S2x512x512_S2x512x128_S2x512x128_2_1_1_2_0_0 512 rfl rfl).symm jj) = ix3 b ii jj := funext fun a => Fin.ext (by
    match a with
    | ⟨0, _⟩ => exact sv_lhs_0 _ _
    | ⟨1, _⟩ => exact sv_lhs_1 _ _
    | ⟨2, _⟩ => exact (sv_lhs_2 _ _).trans hk)
  have er : dot_S2x512x512_S2x512x128_S2x512x128_2_1_1_2_0_0.rhsIdx (ix3 b ii d) ((contrEquiv1 dot_S2x512x512_S2x512x128_S2x512x128_2_1_1_2_0_0 512 rfl rfl).symm jj) = ix3 b jj d := funext fun a => Fin.ext (by
    match a with
    | ⟨0, _⟩ => exact sv_rhs_0 _ _
    | ⟨1, _⟩ => exact (sv_rhs_1 _ _).trans hk
    | ⟨2, _⟩ => exact sv_rhs_2 _ _)
  rw [el, er]

/-! ## The two lane sums

A sum over the last axis, read at an index of the remaining axes, is the sum over that axis's coordinate of the
source at the index with the coordinate put back last. -/

/-- Summing a `[2, 512, 512]` vector over its last axis: entry `(b, ii)` is the sum over `jj` of `(b, ii, jj)`. -/
theorem laneSum3 (src : FVec Ideal S2x512x512 .f32) (h : S2x512x512.Reduces [2] S2x512) (hφ : FKind.Formats .f32)
    (hacc : (0x00000000#32 : BitVec 32) = 0x00000000#32) (b : Fin 2) (ii : Fin 512) :
    multiReduction .add [2] S2x512 src 0x00000000#32 h hφ hacc (ix2 b ii) = ∑ jj : Fin 512, src (ix3 b ii jj) := by
  refine (Ideal.multiReduction_add_single src 0x00000000#32 h hφ hacc (ix2 b ii)).trans ?_
  refine Finset.sum_congr rfl fun jj _ => congrArg src (funext fun a => Fin.ext ?_)
  match a with
  | ⟨0, _⟩ => rfl
  | ⟨1, _⟩ => rfl
  | ⟨2, _⟩ => rfl

/-- Summing a `[512, 512]` matrix over its last axis: entry `ii` is the sum over `jj` of `(ii, jj)`. -/
theorem laneSum2 (src : FVec Ideal S512x512 .f32) (h : S512x512.Reduces [1] S512) (hφ : FKind.Formats .f32)
    (hacc : (0x00000000#32 : BitVec 32) = 0x00000000#32) (ii : Fin 512) :
    multiReduction .add [1] S512 src 0x00000000#32 h hφ hacc (ix1 ii) = ∑ jj : Fin 512, src (ix2 ii jj) := by
  refine (Ideal.multiReduction_add_single src 0x00000000#32 h hφ hacc (ix1 ii)).trans ?_
  refine Finset.sum_congr rfl fun jj _ => congrArg src (funext fun a => Fin.ext ?_)
  match a with
  | ⟨0, _⟩ => rfl
  | ⟨1, _⟩ => rfl

/-! ## The masked scores, and the three running sums -/

/-- The masked score at `(b, ii, jj)`: the product of row `ii` of q with row `jj` of k, times the mask's `(ii, jj)`. -/
theorem pay8_apply (q k : Vec Ideal S2x1x512x128 .f32) (mk : Vec Ideal S1x1x512x512 .f32) (b : Fin 2) (ii jj : Fin 512) :
    k0_pay8 q k mk (ix3 b ii jj)
      = (∑ dd : Fin 128, q (ix4 b (0 : Fin 1) ii dd) * k (ix4 b (0 : Fin 1) jj dd)) * mk (ix4 (0 : Fin 1) (0 : Fin 1) ii jj) := by
  unfold Gen.k0_pay8
  refine (mulf_apply _ _ _).trans (congrArg₂ (· * ·) ?_ ?_)
  · refine (matmul_qk _ _ b ii jj).trans (Finset.sum_congr rfl fun dd _ => ?_)
    exact congrArg₂ (· * ·) (shapeCast_m1ab_mab_apply q _ b ii dd) (shapeCast_m1ab_mab_apply k _ b jj dd)
  · refine (broadcastTo_1ab_2ab_apply _ _ b ii jj).trans ?_
    refine (shapeCast_ab_1ab_apply _ _ (0 : Fin 1) ii jj).trans ?_
    exact pay7_apply mk ii jj

/-- The output accumulator after one column block, at `(b, ii, d)`: what it held plus the sum over the block's
    columns `jj` of the masked score `(b, ii, jj)` times v's `(b, jj, d)`. -/
theorem pay9_apply (q k v : Vec Ideal S2x1x512x128 .f32) (mk : Vec Ideal S1x1x512x512 .f32) (o : Vec Ideal S2x512x128 .f32)
    (b : Fin 2) (ii : Fin 512) (d : Fin 128) :
    k0_pay9 q k v mk o (ix3 b ii d)
      = o (ix3 b ii d) + ∑ jj : Fin 512, ((∑ dd : Fin 128, q (ix4 b (0 : Fin 1) ii dd) * k (ix4 b (0 : Fin 1) jj dd))
          * mk (ix4 (0 : Fin 1) (0 : Fin 1) ii jj)) * v (ix4 b (0 : Fin 1) jj d) := by
  unfold Gen.k0_pay9
  rw [shapeCast_self]
  refine (addf_apply _ _ _).trans (congrArg (o (ix3 b ii d) + ·) ?_)
  refine (matmul_sv _ _ b ii d).trans (Finset.sum_congr rfl fun jj _ => ?_)
  exact congrArg₂ (· * ·) (pay8_apply q k mk b ii jj) (shapeCast_m1ab_mab_apply v _ b jj d)

/-- The score accumulator after one column block, at `(b, ii)`: what it held plus the sum of the block's masked
    scores along row `ii`. -/
theorem pay10_apply (q k : Vec Ideal S2x1x512x128 .f32) (mk : Vec Ideal S1x1x512x512 .f32) (p : Vec Ideal S2x512x1 .f32)
    (b : Fin 2) (ii : Fin 512) :
    k0_pay10 q k mk p (ix3 b ii (0 : Fin 1))
      = p (ix3 b ii (0 : Fin 1)) + ∑ jj : Fin 512, (∑ dd : Fin 128, q (ix4 b (0 : Fin 1) ii dd) * k (ix4 b (0 : Fin 1) jj dd))
          * mk (ix4 (0 : Fin 1) (0 : Fin 1) ii jj) := by
  unfold Gen.k0_pay10
  refine (addf_apply _ _ _).trans (congrArg (p (ix3 b ii (0 : Fin 1)) + ·) ?_)
  refine (shapeCast_ma_ma1_apply _ _ b ii (0 : Fin 1)).trans ?_
  exact (laneSum3 _ _ _ _ b ii).trans (Finset.sum_congr rfl fun jj _ => pay8_apply q k mk b ii jj)

/-- The mask accumulator after one column block, at row `ii`: what it held plus the sum of the block's mask
    entries along row `ii`. -/
theorem pay5_apply (m2 : FVec Ideal S512x512 .f32) (l : Vec Ideal S512x1 .f32) (ii : Fin 512) :
    k0_pay5 m2 l (ix2 ii (0 : Fin 1)) = l (ix2 ii (0 : Fin 1)) + ∑ jj : Fin 512, m2 (ix2 ii jj) := by
  unfold Gen.k0_pay5
  rw [shapeCast_self]
  refine (addf_apply _ _ _).trans (congrArg (l (ix2 ii (0 : Fin 1)) + ·) ?_)
  refine (shapeCast_a_a1_apply _ _ ii (0 : Fin 1)).trans ?_
  exact laneSum2 m2 _ _ _ ii

/-! ## The normalised output -/

/-- An absolute value at an index is the larger of the entry and its negative. -/
theorem absf_apply {s : Shape} {φ : FTy} (a : FVec Ideal s φ) (i : s.Idx) : absf a i = max (a i) (-(a i)) := rfl

/-- The normalised output at `(b, 0, ii, d)`: the output accumulator's `(b, ii, d)` over the mask sum of row `ii`,
    over the larger of one and the absolute value of the score accumulator's `(b, ii)` over the same mask sum. -/
theorem pay6_apply (l : Vec Ideal S512x1 .f32) (p : Vec Ideal S2x512x1 .f32) (o : Vec Ideal S2x512x128 .f32)
    (b : Fin 2) (ii : Fin 512) (d : Fin 128) :
    k0_pay6 l p o (ix4 b (0 : Fin 1) ii d)
      = Ideal.div (Ideal.div (o (ix3 b ii d)) (l (ix2 ii (0 : Fin 1))))
          (max (max (Ideal.div (p (ix3 b ii (0 : Fin 1))) (l (ix2 ii (0 : Fin 1))))
                 (-(Ideal.div (p (ix3 b ii (0 : Fin 1))) (l (ix2 ii (0 : Fin 1)))))) 1) := by
  unfold Gen.k0_pay6
  -- the mask sums as a `[1, 512, 1]` column
  have hl : ∀ h, shapeCast S1x512x1 l h (ix3 (0 : Fin 1) ii (0 : Fin 1)) = l (ix2 ii (0 : Fin 1)) :=
    fun h => shapeCast_ab_1ab_apply l h (0 : Fin 1) ii (0 : Fin 1)
  refine (shapeCast_mab_m1ab_apply _ _ b (0 : Fin 1) ii d).trans ?_
  refine (divf_apply _ _ _).trans (congrArg₂ Ideal.div ?_ ?_)
  · refine (divf_apply _ _ _).trans (congrArg (Ideal.div (o (ix3 b ii d))) ?_)
    exact (broadcastTo_1a1_2ab_apply _ _ b ii d).trans (hl _)
  · refine (broadcastTo_2a1_2ab_apply _ _ b ii d).trans ?_
    refine (maximumf_apply _ _ _).trans (congrArg₂ max ?_ ofBits_one_f32)
    refine (absf_apply _ _).trans (congrArg₂ max ?_ (congrArg Neg.neg ?_))
    all_goals
      refine (divf_apply _ _ _).trans (congrArg (Ideal.div (p (ix3 b ii (0 : Fin 1)))) ?_)
      exact (broadcastTo_1a1_2a1_apply _ _ b ii (0 : Fin 1)).trans (hl _)

end Cert.KernelIdeal.Pay

end
-- ==== Proof.Algebra.lean ====
/-
  The kernel's formula equals the reference's formula, over the extended reals, for real inputs and a causal mask.

  Plan.  (1) The mask vanishes above the diagonal, so the kernel's sums over the column-blocks 0 … i/512 are sums over
  all 2048 columns.  (2) Write L for the mask's row sum.  If L ≠ 0 everything is real arithmetic and the two formulas
  differ only by where the division by L is done.  If L = 0 both formulas are 0: the kernel divides by
  max(|±∞|, 1) = ⊤, and the reference's scores all lie in {⊤, ⊥, 0}, a set with no cancelling pair under addition.
-/
import proofs.«156671_j46643344835366_1_alg».proof.Proof.Spec

noncomputable section

open Idealize.ShloMosaic

namespace Cert.Spec

/-! ### Re-indexing the 2048 columns as 4 blocks of 512 -/

/-- (block, offset) ↦ column is a bijection. -/
def jEquiv : Fin 4 × Fin 512 ≃ Fin 2048 where
  toFun p := jOf p.1 p.2
  invFun j := (⟨j.val / 512, by omega⟩, ⟨j.val % 512, by omega⟩)
  left_inv p := by
    rcases p with ⟨⟨a, ha⟩, ⟨c, hc⟩⟩
    simp only [jOf, Prod.mk.injEq, Fin.mk.injEq]
    constructor <;> omega
  right_inv j := by
    rcases j with ⟨j, hj⟩
    simp only [jOf, Fin.mk.injEq]
    omega

/-- A sum over blocks and offsets is the sum over all columns. -/
theorem sum_jOf (f : Fin 2048 → EReal) :
    ∑ kj : Fin 4, ∑ jj : Fin 512, f (jOf kj jj) = ∑ j : Fin 2048, f j := by
  rw [← Fintype.sum_prod_type']
  exact Fintype.sum_equiv jEquiv _ _ (fun _ => rfl)

/-- A column of a block beyond the row's own lies strictly right of the diagonal. -/
theorem lt_jOf (i : Fin 2048) (kj : Fin 4) (jj : Fin 512) (hk : ¬ kj.val ≤ i.val / 512) :
    i.val < (jOf kj jj).val := by
  simp only [jOf]
  omega

/-- If the blocks beyond the `n`-th contribute 0, the partial sum is the full sum. -/
theorem psum_eq_sum (f : Fin 4 → EReal) (n : ℕ) (hf : ∀ x : Fin 4, ¬ x.val ≤ n → f x = 0) :
    psum f n = ∑ x : Fin 4, f x := by
  unfold psum
  refine Finset.sum_congr rfl (fun x _ => ?_)
  by_cases hx : x.val ≤ n
  · rw [if_pos hx]
  · rw [if_neg hx, hf x hx]

section causal

variable (q k v : QKV) (M : MSK)
variable (hcausal : ∀ (h : Fin 16) (i j : Fin 2048), i.val < j.val → M h i j = 0)
include hcausal

theorem psum_blkL (h : Fin 16) (i : Fin 2048) :
    psum (blkL M h i) (i.val / 512) = ∑ j : Fin 2048, M h i j := by
  rw [psum_eq_sum, ← sum_jOf]
  · rfl
  · intro x hx
    unfold blkL
    exact Finset.sum_eq_zero (fun jj _ => hcausal h i _ (lt_jOf i x jj hx))

theorem psum_blkP (b : Fin 2) (h : Fin 16) (i : Fin 2048) :
    psum (blkP q k M b h i) (i.val / 512) = ∑ j : Fin 2048, sc q k M b h i j := by
  rw [psum_eq_sum, ← sum_jOf]
  · rfl
  · intro x hx
    unfold blkP
    refine Finset.sum_eq_zero (fun jj _ => ?_)
    unfold sc
    rw [hcausal h i _ (lt_jOf i x jj hx), mul_zero]

theorem psum_blkO (b : Fin 2) (h : Fin 16) (i : Fin 2048) (d : Fin 128) :
    psum (blkO q k v M b h i d) (i.val / 512) = ∑ j : Fin 2048, sc q k M b h i j * v b h j d := by
  rw [psum_eq_sum, ← sum_jOf]
  · rfl
  · intro x hx
    unfold blkO
    refine Finset.sum_eq_zero (fun jj _ => ?_)
    unfold sc
    rw [hcausal h i _ (lt_jOf i x jj hx), mul_zero, zero_mul]

end causal

/-! ### The closed forms of the two formulas -/

theorem refVal_eq (q k v : QKV) (M : MSK) (b : Fin 2) (h : Fin 16) (i : Fin 2048) (d : Fin 128) :
    refVal q k v M b h i d
      = Ideal.div (∑ j : Fin 2048, refS q k M b h i j * v b h j d)
          (max 1 (max (∑ j : Fin 2048, refS q k M b h i j) (-(∑ j : Fin 2048, refS q k M b h i j)))) := by
  unfold refVal
  simp only [zero_add]

theorem refL_eq (M : MSK) (h : Fin 16) (i : Fin 2048) : refL M h i = ∑ j : Fin 2048, M h i j := by
  unfold refL
  rw [zero_add]

/-- For a causal mask the kernel's three running sums run over all columns. -/
theorem kerVal_eq (q k v : QKV) (M : MSK)
    (hcausal : ∀ (h : Fin 16) (i j : Fin 2048), i.val < j.val → M h i j = 0)
    (b : Fin 2) (h : Fin 16) (i : Fin 2048) (d : Fin 128) :
    kerVal q k v M b h i d
      = Ideal.div (Ideal.div (∑ j : Fin 2048, sc q k M b h i j * v b h j d) (∑ j : Fin 2048, M h i j))
          (max (max (Ideal.div (∑ j : Fin 2048, sc q k M b h i j) (∑ j : Fin 2048, M h i j))
                    (-(Ideal.div (∑ j : Fin 2048, sc q k M b h i j) (∑ j : Fin 2048, M h i j)))) 1) := by
  unfold kerVal
  simp only [psum_blkL M hcausal, psum_blkP q k M hcausal, psum_blkO q k v M hcausal]

/-! ### Division by zero and by ⊤ -/

/-- A quotient by zero is an infinity. -/
theorem div_zero_cases (x : EReal) : Ideal.div x 0 = ⊤ ∨ Ideal.div x 0 = ⊥ := by
  unfold Ideal.div
  rw [if_pos rfl]
  by_cases hx : 0 < x
  · left; rw [if_pos hx]
  · right; rw [if_neg hx]

/-- A quotient by ⊤ is zero, whatever the dividend: `⊤⁻¹ = 0`. -/
theorem div_top (x : EReal) : Ideal.div x ⊤ = 0 := by
  unfold Ideal.div
  rw [if_neg EReal.top_ne_zero, EReal.inv_top, mul_zero]

/-- The absolute value of an infinity is ⊤. -/
theorem abs_of_inf {x : EReal} (hx : x = ⊤ ∨ x = ⊥) : max x (-x) = ⊤ := by
  rcases hx with rfl | rfl
  · rw [EReal.neg_top]; exact max_eq_left bot_le
  · rw [EReal.neg_bot]; exact max_eq_right bot_le

/-- With a vanishing row sum the kernel's value is 0: it divides by `max(|±∞|, 1) = ⊤`. -/
theorem kerVal_eq_zero (q k v : QKV) (M : MSK)
    (hcausal : ∀ (h : Fin 16) (i j : Fin 2048), i.val < j.val → M h i j = 0)
    (b : Fin 2) (h : Fin 16) (i : Fin 2048) (d : Fin 128) (hL : ∑ j : Fin 2048, M h i j = 0) :
    kerVal q k v M b h i d = 0 := by
  rw [kerVal_eq q k v M hcausal, hL, abs_of_inf (div_zero_cases _), max_eq_left le_top, div_top]

/-! ### The set {⊤, ⊥, 0}: closed under addition and under multiplication by a real, with no cancelling pair -/

/-- `x` is ⊤, ⊥ or 0. -/
def T (x : EReal) : Prop := x = ⊤ ∨ x = ⊥ ∨ x = 0

theorem T_zero : T 0 := Or.inr (Or.inr rfl)

theorem T_add {x y : EReal} (hx : T x) (hy : T y) : T (x + y) := by
  rcases hx with rfl | rfl | rfl
  · rcases hy with rfl | rfl | rfl
    · left; exact EReal.top_add_top
    · right; left; exact EReal.add_bot _
    · left; rw [add_zero]
  · right; left; exact EReal.bot_add _
  · rw [zero_add]; exact hy

/-- No two members cancel: ⊤ + ⊥ = ⊥, not 0. -/
theorem T_add_eq_zero {x y : EReal} (hx : T x) (hy : T y) (h : x + y = 0) : x = 0 ∧ y = 0 := by
  rcases hx with rfl | rfl | rfl
  · rcases hy with rfl | rfl | rfl
    · rw [EReal.top_add_top] at h; exact absurd h EReal.top_ne_zero
    · rw [EReal.add_bot] at h; exact absurd h EReal.bot_ne_zero
    · rw [add_zero] at h; exact absurd h EReal.top_ne_zero
  · rw [EReal.bot_add] at h; exact absurd h EReal.bot_ne_zero
  · rw [zero_add] at h; exact ⟨rfl, h⟩

theorem T_mul_coe {x : EReal} (hx : T x) (r : ℝ) : T (x * (r : EReal)) := by
  rcases hx with rfl | rfl | rfl
  · rcases lt_trichotomy r 0 with hr | rfl | hr
    · right; left; exact EReal.top_mul_coe_of_neg hr
    · right; right; rw [EReal.coe_zero, mul_zero]
    · left; exact EReal.top_mul_coe_of_pos hr
  · rcases lt_trichotomy r 0 with hr | rfl | hr
    · left; exact EReal.bot_mul_coe_of_neg hr
    · right; right; rw [EReal.coe_zero, mul_zero]
    · right; left; exact EReal.bot_mul_coe_of_pos hr
  · right; right; rw [zero_mul]

theorem T_sum {ι : Type} (s : Finset ι) (f : ι → EReal) (hf : ∀ x ∈ s, T (f x)) : T (∑ x ∈ s, f x) := by
  classical
  induction s using Finset.induction_on with
  | empty => rw [Finset.sum_empty]; exact T_zero
  | insert a s ha ih =>
    rw [Finset.sum_insert ha]
    exact T_add (hf a (Finset.mem_insert_self a s)) (ih (fun x hx => hf x (Finset.mem_insert_of_mem hx)))

/-- A finite sum of members is 0 only if every term is 0. -/
theorem T_sum_eq_zero {ι : Type} (s : Finset ι) (f : ι → EReal) (hf : ∀ x ∈ s, T (f x))
    (h : ∑ x ∈ s, f x = 0) : ∀ x ∈ s, f x = 0 := by
  classical
  induction s using Finset.induction_on with
  | empty => intro x hx; exact absurd hx (Finset.notMem_empty x)
  | insert a s ha ih =>
    rw [Finset.sum_insert ha] at h
    have hfa := hf a (Finset.mem_insert_self a s)
    have hfs : ∀ x ∈ s, T (f x) := fun x hx => hf x (Finset.mem_insert_of_mem hx)
    obtain ⟨h1, h2⟩ := T_add_eq_zero hfa (T_sum s f hfs) h
    intro x hx
    rcases Finset.mem_insert.mp hx with rfl | hx
    · exact h1
    · exact ih hfs h2 x hx

/-! ### The reference with a vanishing row sum -/

/-- With a vanishing row sum every score of the reference is ⊤, ⊥ or 0. -/
theorem T_refS (q k : QKV) (M : MSK)
    (hk : ∀ b h i d, ∃ r : ℝ, k b h i d = (r : EReal)) (hM : ∀ h i j, ∃ r : ℝ, M h i j = (r : EReal))
    (b : Fin 2) (h : Fin 16) (i j : Fin 2048) (hL : refL M h i = 0) : T (refS q k M b h i j) := by
  unfold refS
  rw [hL]
  obtain ⟨m, hm⟩ := hM h i j
  rw [hm]
  refine T_mul_coe (T_sum _ _ (fun dd _ => ?_)) m
  obtain ⟨r, hr⟩ := hk b h j dd
  rw [hr]
  refine T_mul_coe ?_ r
  rcases div_zero_cases (q b h i dd) with h1 | h1
  · left; exact h1
  · right; left; exact h1

/-- With a vanishing row sum the reference's value is 0: either the scores' sum is an infinity and the
    divisor is ⊤, or the sum is 0, then every score is 0 and so is the numerator. -/
theorem refVal_eq_zero (q k v : QKV) (M : MSK)
    (hk : ∀ b h i d, ∃ r : ℝ, k b h i d = (r : EReal)) (hM : ∀ h i j, ∃ r : ℝ, M h i j = (r : EReal))
    (b : Fin 2) (h : Fin 16) (i : Fin 2048) (d : Fin 128) (hL : refL M h i = 0) :
    refVal q k v M b h i d = 0 := by
  rw [refVal_eq]
  have hT : ∀ j ∈ (Finset.univ : Finset (Fin 2048)), T (refS q k M b h i j) :=
    fun j _ => T_refS q k M hk hM b h i j hL
  rcases T_sum _ _ hT with hS | hS | hS
  · rw [hS, abs_of_inf (Or.inl rfl), max_eq_right le_top, div_top]
  · rw [hS, abs_of_inf (Or.inr rfl), max_eq_right le_top, div_top]
  · have h0 := T_sum_eq_zero _ _ hT hS
    rw [hS, neg_zero, max_self, max_eq_left zero_le_one,
      Finset.sum_eq_zero (fun j hj => by rw [h0 j hj, zero_mul])]
    unfold Ideal.div
    rw [if_neg one_ne_zero, zero_mul]

/-! ### Real arithmetic: pushing the coercion ℝ → EReal outwards -/

theorem coe_sum {ι : Type} (s : Finset ι) (f : ι → ℝ) :
    ((∑ x ∈ s, f x : ℝ) : EReal) = ∑ x ∈ s, (f x : EReal) := by
  classical
  induction s using Finset.induction_on with
  | empty => rw [Finset.sum_empty, Finset.sum_empty, EReal.coe_zero]
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

/-- A quotient of reals by a nonzero real is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The masked score as a real number. -/
def scR (qr kr : Fin 2 → Fin 16 → Fin 2048 → Fin 128 → ℝ) (mr : Fin 16 → Fin 2048 → Fin 2048 → ℝ)
    (b : Fin 2) (h : Fin 16) (i j : Fin 2048) : ℝ :=
  (∑ dd : Fin 128, qr b h i dd * kr b h j dd) * mr h i j

theorem sc_coe (q k : QKV) (M : MSK)
    (qr kr : Fin 2 → Fin 16 → Fin 2048 → Fin 128 → ℝ) (mr : Fin 16 → Fin 2048 → Fin 2048 → ℝ)
    (hqr : ∀ b h i d, q b h i d = (qr b h i d : EReal)) (hkr : ∀ b h i d, k b h i d = (kr b h i d : EReal))
    (hmr : ∀ h i j, M h i j = (mr h i j : EReal))
    (b : Fin 2) (h : Fin 16) (i j : Fin 2048) :
    sc q k M b h i j = (scR qr kr mr b h i j : EReal) := by
  unfold sc raw scR
  simp only [hqr, hkr, hmr, ← EReal.coe_mul, ← coe_sum]

/-- With a nonzero real row sum `l` the reference's score is the masked score divided by `l`:
    `(∑ (q/l)·k)·m = ((∑ q·k)·m)/l`. -/
theorem refS_coe (q k : QKV) (M : MSK)
    (qr kr : Fin 2 → Fin 16 → Fin 2048 → Fin 128 → ℝ) (mr : Fin 16 → Fin 2048 → Fin 2048 → ℝ)
    (hqr : ∀ b h i d, q b h i d = (qr b h i d : EReal)) (hkr : ∀ b h i d, k b h i d = (kr b h i d : EReal))
    (hmr : ∀ h i j, M h i j = (mr h i j : EReal))
    (b : Fin 2) (h : Fin 16) (i j : Fin 2048) (l : ℝ) (hl : l ≠ 0) (hL : refL M h i = (l : EReal)) :
    refS q k M b h i j = ((scR qr kr mr b h i j / l : ℝ) : EReal) := by
  unfold refS scR
  rw [hL]
  simp only [hqr, hkr, hmr, div_coe_coe _ hl, ← EReal.coe_mul, ← coe_sum]
  congr 1
  have h1 : ∑ dd : Fin 128, qr b h i dd / l * kr b h j dd = (∑ dd : Fin 128, qr b h i dd * kr b h j dd) / l := by
    rw [Finset.sum_div]
    exact Finset.sum_congr rfl (fun dd _ => by ring)
  rw [h1]
  ring

/-- With a nonzero real row sum the two formulas agree: both are `(O/l) / max(|P/l|, 1)` in real arithmetic. -/
theorem ker_eq_ref_of_ne_zero (q k v : QKV) (M : MSK)
    (qr kr vr : Fin 2 → Fin 16 → Fin 2048 → Fin 128 → ℝ) (mr : Fin 16 → Fin 2048 → Fin 2048 → ℝ)
    (hqr : ∀ b h i d, q b h i d = (qr b h i d : EReal)) (hkr : ∀ b h i d, k b h i d = (kr b h i d : EReal))
    (hvr : ∀ b h i d, v b h i d = (vr b h i d : EReal)) (hmr : ∀ h i j, M h i j = (mr h i j : EReal))
    (hcausal : ∀ (h : Fin 16) (i j : Fin 2048), i.val < j.val → M h i j = 0)
    (b : Fin 2) (h : Fin 16) (i : Fin 2048) (d : Fin 128)
    (l : ℝ) (hl : l ≠ 0) (hL : ∑ j : Fin 2048, M h i j = (l : EReal)) :
    kerVal q k v M b h i d = refVal q k v M b h i d := by
  have hrL : refL M h i = (l : EReal) := by rw [refL_eq, hL]
  have hsc : ∀ j, sc q k M b h i j = (scR qr kr mr b h i j : EReal) :=
    fun j => sc_coe q k M qr kr mr hqr hkr hmr b h i j
  have hrs : ∀ j, refS q k M b h i j = ((scR qr kr mr b h i j / l : ℝ) : EReal) :=
    fun j => refS_coe q k M qr kr mr hqr hkr hmr b h i j l hl hrL
  have hK : kerVal q k v M b h i d
      = (((∑ j : Fin 2048, scR qr kr mr b h i j * vr b h j d) / l
          / max (max ((∑ j : Fin 2048, scR qr kr mr b h i j) / l)
                     (-((∑ j : Fin 2048, scR qr kr mr b h i j) / l))) 1 : ℝ) : EReal) := by
    rw [kerVal_eq q k v M hcausal, hL]
    simp only [hsc, hvr, ← EReal.coe_mul, ← coe_sum]
    rw [div_coe_coe _ hl, div_coe_coe _ hl, ← EReal.coe_neg, ← coe_max, ← EReal.coe_one, ← coe_max,
      div_coe_coe _ (lt_of_lt_of_le one_pos (le_max_right _ _)).ne']
  have hR : refVal q k v M b h i d
      = (((∑ j : Fin 2048, scR qr kr mr b h i j / l * vr b h j d)
          / max 1 (max (∑ j : Fin 2048, scR qr kr mr b h i j / l)
                       (-(∑ j : Fin 2048, scR qr kr mr b h i j / l))) : ℝ) : EReal) := by
    rw [refVal_eq]
    simp only [hrs, hvr, ← EReal.coe_mul, ← coe_sum]
    rw [← EReal.coe_neg, ← coe_max, ← EReal.coe_one, ← coe_max,
      div_coe_coe _ (lt_of_lt_of_le one_pos (le_max_left _ _)).ne']
  have h1 : ∑ j : Fin 2048, scR qr kr mr b h i j / l = (∑ j : Fin 2048, scR qr kr mr b h i j) / l :=
    (Finset.sum_div _ _ _).symm
  have h2 : ∑ j : Fin 2048, scR qr kr mr b h i j / l * vr b h j d
      = (∑ j : Fin 2048, scR qr kr mr b h i j * vr b h j d) / l := by
    rw [Finset.sum_div]
    exact Finset.sum_congr rfl (fun j _ => by ring)
  rw [hK, hR, h1, h2, max_comm (1 : ℝ)]

/-! ### The theorem -/

theorem ker_eq_ref (q k v : QKV) (M : MSK)
    (hq : ∀ b h i d, ∃ r : ℝ, q b h i d = (r : EReal)) (hk : ∀ b h i d, ∃ r : ℝ, k b h i d = (r : EReal))
    (hv : ∀ b h i d, ∃ r : ℝ, v b h i d = (r : EReal)) (hM : ∀ h i j, ∃ r : ℝ, M h i j = (r : EReal))
    (hcausal : ∀ (h : Fin 16) (i j : Fin 2048), i.val < j.val → M h i j = 0)
    (b : Fin 2) (h : Fin 16) (i : Fin 2048) (d : Fin 128) :
    kerVal q k v M b h i d = refVal q k v M b h i d := by
  choose qr hqr using hq
  choose kr hkr using hk
  choose vr hvr using hv
  choose mr hmr using hM
  -- the mask's row sum is the real number `l`
  have hL : ∑ j : Fin 2048, M h i j = ((∑ j : Fin 2048, mr h i j : ℝ) : EReal) := by
    rw [coe_sum]
    exact Finset.sum_congr rfl (fun j _ => hmr h i j)
  by_cases hl : (∑ j : Fin 2048, mr h i j) = 0
  · -- row sum 0: both formulas give 0
    rw [hl, EReal.coe_zero] at hL
    rw [kerVal_eq_zero q k v M hcausal b h i d hL,
      refVal_eq_zero q k v M (fun b h i d => ⟨kr b h i d, hkr b h i d⟩) (fun h i j => ⟨mr h i j, hmr h i j⟩)
        b h i d (by rw [refL_eq, hL])]
  · exact ker_eq_ref_of_ne_zero q k v M qr kr vr mr hqr hkr hvr hmr hcausal b h i d _ hl hL

end Cert.Spec

end
-- ==== Proof.KIValue1.lean ====
/-
  The kernel's three running sums and its output block, point by point, over the extended reals.

  Grid point t is (head, row-block, column-block) = (t / 16, t / 4 % 4, t % 4).  The blocks the point reads are
  restrictions of the four argument arrays; along a row-block's run the sums collect one column-block per point up to
  the row-block's own, so after the point with column-block k ≤ row-block they are the partial sums over the
  column-blocks 0 … k; the output block is written where the column-block meets the row-block and kept to the run's end.
-/
import proofs.«156671_j46643344835366_1_alg».proof.Proof.KIValDefs
import proofs.«156671_j46643344835366_1_alg».proof.Proof.PayIdeal
import proofs.«156671_j46643344835366_1_alg».proof.Proof.Algebra

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ)

/-! ## The windows' block indices over the grid -/

theorem idx0 : ∀ t : Fin cfg0.N, win0_0.index t (0 : Fin 4) = 0 ∧ win0_0.index t (1 : Fin 4) = t.val / 16
    ∧ win0_0.index t (2 : Fin 4) = t.val / 4 % 4 ∧ win0_0.index t (3 : Fin 4) = 0 :=
  (by decide +kernel : ∀ t : Fin grid0.N, _)
theorem idx1 : ∀ t : Fin cfg0.N, win0_1.index t (0 : Fin 4) = 0 ∧ win0_1.index t (1 : Fin 4) = t.val / 16
    ∧ win0_1.index t (2 : Fin 4) = min (t.val % 4) (t.val / 4 % 4) ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val / 16
    ∧ win0_2.index t (2 : Fin 4) = min (t.val % 4) (t.val / 4 % 4) ∧ win0_2.index t (3 : Fin 4) = 0 :=
  (by decide +kernel : ∀ t : Fin grid0.N, _)
theorem idx3 : ∀ t : Fin cfg0.N, win0_3.index t (0 : Fin 4) = 0 ∧ win0_3.index t (1 : Fin 4) = t.val / 16
    ∧ win0_3.index t (2 : Fin 4) = t.val / 4 % 4 ∧ win0_3.index t (3 : Fin 4) = min (t.val % 4) (t.val / 4 % 4) :=
  (by decide +kernel : ∀ t : Fin grid0.N, _)

/-! ## The blocks as restrictions of the arrays: a block's coordinate is block index × block size + the coordinate inside -/

theorem iblk0_apply (c : Dev nD) (t : Fin cfg0.N) (b : Fin 2) (ii : Fin 512) (dd : Fin 128) :
    (iblk m c 0 t : S2x1x512x128.Idx → EReal) (ix4 b (0 : Fin 1) ii dd)
      = Q m c b (headOf t) (rowOf (t.val / 4 % 4) (Nat.mod_lt _ (by norm_num)) ii) dd := by
  obtain ⟨e0, e1, e2, e3⟩ := idx0 t
  show V m c main_arg0 (((cfg0.win 0).blk t).view.emb (ix4 b (0 : Fin 1) ii dd))
    = V m c main_arg0 (ix4 b (headOf t) (rowOf (t.val / 4 % 4) (Nat.mod_lt _ (by norm_num)) ii) dd)
  refine congrArg (V m c main_arg0) (funext fun a => Fin.ext ?_)
  match a with
  | ⟨0, _⟩ => show win0_0.index t (0 : Fin 4) * 2 + 1 * b.val = b.val; omega
  | ⟨1, _⟩ => show win0_0.index t (1 : Fin 4) * 1 + 1 * 0 = t.val / 16; omega
  | ⟨2, _⟩ => show win0_0.index t (2 : Fin 4) * 512 + 1 * ii.val = 512 * (t.val / 4 % 4) + ii.val; omega
  | ⟨3, _⟩ => show win0_0.index t (3 : Fin 4) * 128 + 1 * dd.val = dd.val; omega

theorem iblk1_apply (c : Dev nD) (t : Fin cfg0.N) (b : Fin 2) (jj : Fin 512) (dd : Fin 128) :
    (iblk m c 1 t : S2x1x512x128.Idx → EReal) (ix4 b (0 : Fin 1) jj dd)
      = K m c b (headOf t) (rowOf (min (t.val % 4) (t.val / 4 % 4)) (by omega) jj) dd := by
  obtain ⟨e0, e1, e2, e3⟩ := idx1 t
  show V m c main_arg1 (((cfg0.win 1).blk t).view.emb (ix4 b (0 : Fin 1) jj dd))
    = V m c main_arg1 (ix4 b (headOf t) (rowOf (min (t.val % 4) (t.val / 4 % 4)) (by omega) jj) dd)
  refine congrArg (V m c main_arg1) (funext fun a => Fin.ext ?_)
  match a with
  | ⟨0, _⟩ => show win0_1.index t (0 : Fin 4) * 2 + 1 * b.val = b.val; omega
  | ⟨1, _⟩ => show win0_1.index t (1 : Fin 4) * 1 + 1 * 0 = t.val / 16; omega
  | ⟨2, _⟩ => show win0_1.index t (2 : Fin 4) * 512 + 1 * jj.val = 512 * (min (t.val % 4) (t.val / 4 % 4)) + jj.val; omega
  | ⟨3, _⟩ => show win0_1.index t (3 : Fin 4) * 128 + 1 * dd.val = dd.val; omega

theorem iblk2_apply (c : Dev nD) (t : Fin cfg0.N) (b : Fin 2) (jj : Fin 512) (dd : Fin 128) :
    (iblk m c 2 t : S2x1x512x128.Idx → EReal) (ix4 b (0 : Fin 1) jj dd)
      = W m c b (headOf t) (rowOf (min (t.val % 4) (t.val / 4 % 4)) (by omega) jj) dd := by
  obtain ⟨e0, e1, e2, e3⟩ := idx2 t
  show V m c main_arg2 (((cfg0.win 2).blk t).view.emb (ix4 b (0 : Fin 1) jj dd))
    = V m c main_arg2 (ix4 b (headOf t) (rowOf (min (t.val % 4) (t.val / 4 % 4)) (by omega) jj) dd)
  refine congrArg (V m c main_arg2) (funext fun a => Fin.ext ?_)
  match a with
  | ⟨0, _⟩ => show win0_2.index t (0 : Fin 4) * 2 + 1 * b.val = b.val; omega
  | ⟨1, _⟩ => show win0_2.index t (1 : Fin 4) * 1 + 1 * 0 = t.val / 16; omega
  | ⟨2, _⟩ => show win0_2.index t (2 : Fin 4) * 512 + 1 * jj.val = 512 * (min (t.val % 4) (t.val / 4 % 4)) + jj.val; omega
  | ⟨3, _⟩ => show win0_2.index t (3 : Fin 4) * 128 + 1 * dd.val = dd.val; omega

theorem iblk3_apply (c : Dev nD) (t : Fin cfg0.N) (ii jj : Fin 512) :
    (iblk m c 3 t : S1x1x512x512.Idx → EReal) (ix4 (0 : Fin 1) (0 : Fin 1) ii jj)
      = M m c (headOf t) (rowOf (t.val / 4 % 4) (Nat.mod_lt _ (by norm_num)) ii)
          (rowOf (min (t.val % 4) (t.val / 4 % 4)) (by omega) jj) := by
  obtain ⟨e0, e1, e2, e3⟩ := idx3 t
  show V m c main_arg3 (((cfg0.win 3).blk t).view.emb (ix4 (0 : Fin 1) (0 : Fin 1) ii jj))
    = V m c main_arg3 (ix4 (0 : Fin 1) (headOf t) (rowOf (t.val / 4 % 4) (Nat.mod_lt _ (by norm_num)) ii)
        (rowOf (min (t.val % 4) (t.val / 4 % 4)) (by omega) jj))
  refine congrArg (V m c main_arg3) (funext fun a => Fin.ext ?_)
  match a with
  | ⟨0, _⟩ => show win0_3.index t (0 : Fin 4) * 1 + 1 * 0 = 0; omega
  | ⟨1, _⟩ => show win0_3.index t (1 : Fin 4) * 1 + 1 * 0 = t.val / 16; omega
  | ⟨2, _⟩ => show win0_3.index t (2 : Fin 4) * 512 + 1 * ii.val = 512 * (t.val / 4 % 4) + ii.val; omega
  | ⟨3, _⟩ => show win0_3.index t (3 : Fin 4) * 512 + 1 * jj.val = 512 * (min (t.val % 4) (t.val / 4 % 4)) + jj.val; omega

/-! ## Partial sums over the column-blocks -/

/-- The partial sum up to block 0 is block 0's term. -/
theorem psum_zero' (f : Fin 4 → EReal) (k : ℕ) (hk : k < 4) (h : k = 0) : 0 + f ⟨k, hk⟩ = Cert.Spec.psum f k := by
  subst h
  unfold Cert.Spec.psum
  rw [Fin.sum_univ_four]
  show 0 + f 0 = (if (0 : ℕ) ≤ 0 then f 0 else 0) + (if (1 : ℕ) ≤ 0 then f 1 else 0) + (if (2 : ℕ) ≤ 0 then f 2 else 0)
    + (if (3 : ℕ) ≤ 0 then f 3 else 0)
  simp

/-- One more block: the partial sum up to `a + 1` is the one up to `a` plus block `a + 1`'s term. -/
theorem psum_step (f : Fin 4 → EReal) (a k : ℕ) (hk : k < 4) (h : k = a + 1) :
    Cert.Spec.psum f a + f ⟨k, hk⟩ = Cert.Spec.psum f k := by
  subst h
  unfold Cert.Spec.psum
  rw [Fin.sum_univ_four, Fin.sum_univ_four]
  have ha : a = 0 ∨ a = 1 ∨ a = 2 := by omega
  rcases ha with rfl | rfl | rfl
  · show (if (0 : ℕ) ≤ 0 then f 0 else 0) + (if (1 : ℕ) ≤ 0 then f 1 else 0) + (if (2 : ℕ) ≤ 0 then f 2 else 0)
        + (if (3 : ℕ) ≤ 0 then f 3 else 0) + f 1
      = (if (0 : ℕ) ≤ 1 then f 0 else 0) + (if (1 : ℕ) ≤ 1 then f 1 else 0) + (if (2 : ℕ) ≤ 1 then f 2 else 0)
        + (if (3 : ℕ) ≤ 1 then f 3 else 0)
    simp
  · show (if (0 : ℕ) ≤ 1 then f 0 else 0) + (if (1 : ℕ) ≤ 1 then f 1 else 0) + (if (2 : ℕ) ≤ 1 then f 2 else 0)
        + (if (3 : ℕ) ≤ 1 then f 3 else 0) + f 2
      = (if (0 : ℕ) ≤ 2 then f 0 else 0) + (if (1 : ℕ) ≤ 2 then f 1 else 0) + (if (2 : ℕ) ≤ 2 then f 2 else 0)
        + (if (3 : ℕ) ≤ 2 then f 3 else 0)
    simp
  · show (if (0 : ℕ) ≤ 2 then f 0 else 0) + (if (1 : ℕ) ≤ 2 then f 1 else 0) + (if (2 : ℕ) ≤ 2 then f 2 else 0)
        + (if (3 : ℕ) ≤ 2 then f 3 else 0) + f 3
      = (if (0 : ℕ) ≤ 3 then f 0 else 0) + (if (1 : ℕ) ≤ 3 then f 1 else 0) + (if (2 : ℕ) ≤ 3 then f 2 else 0)
        + (if (3 : ℕ) ≤ 3 then f 3 else 0)
    simp

/-! ## One point's step on the sums, read at an index (over any blocks) -/

section Step
variable (i : grid0.Coords) (xq xk xv : Vec Ideal S2x1x512x128 .f32) (xm : Vec Ideal S1x1x512x512 .f32)

/-- Column-block 0: the numerator restarts from 0 and takes the block's term. -/
theorem stepO_first (h1 : c1 i) (h2 : c2 i) (xo : Vec Ideal S2x512x128 .f32) (b : Fin 2) (ii : Fin 512) (d : Fin 128) :
    stepO i xq xk xv xm xo (ix3 b ii d)
      = 0 + ∑ jj : Fin 512, ((∑ dd : Fin 128, xq (ix4 b (0 : Fin 1) ii dd) * xk (ix4 b (0 : Fin 1) jj dd))
          * xm (ix4 (0 : Fin 1) (0 : Fin 1) ii jj)) * xv (ix4 b (0 : Fin 1) jj d) := by
  unfold stepO
  rw [if_pos h2, if_pos h1]
  exact (Pay.pay9_apply xq xk xv xm _ b ii d).trans (congrArg (· + _) (Pay.pay1_apply _))

/-- A later column-block up to the row-block's own: the numerator takes the block's term. -/
theorem stepO_next (h1 : ¬c1 i) (h2 : c2 i) (xo : Vec Ideal S2x512x128 .f32) (b : Fin 2) (ii : Fin 512) (d : Fin 128) :
    stepO i xq xk xv xm xo (ix3 b ii d)
      = xo (ix3 b ii d) + ∑ jj : Fin 512, ((∑ dd : Fin 128, xq (ix4 b (0 : Fin 1) ii dd) * xk (ix4 b (0 : Fin 1) jj dd))
          * xm (ix4 (0 : Fin 1) (0 : Fin 1) ii jj)) * xv (ix4 b (0 : Fin 1) jj d) := by
  unfold stepO
  rw [if_pos h2, if_neg h1]
  exact Pay.pay9_apply xq xk xv xm xo b ii d

theorem stepP_first (h1 : c1 i) (h2 : c2 i) (xp : Vec Ideal S2x512x1 .f32) (b : Fin 2) (ii : Fin 512) :
    stepP i xq xk xm xp (ix3 b ii (0 : Fin 1))
      = 0 + ∑ jj : Fin 512, (∑ dd : Fin 128, xq (ix4 b (0 : Fin 1) ii dd) * xk (ix4 b (0 : Fin 1) jj dd))
          * xm (ix4 (0 : Fin 1) (0 : Fin 1) ii jj) := by
  unfold stepP
  rw [if_pos h2, if_pos h1]
  exact (Pay.pay4_apply _ _).trans ((Pay.pay10_apply xq xk xm _ b ii).trans (congrArg (· + _) (Pay.pay2_apply _)))

theorem stepP_next (h1 : ¬c1 i) (h2 : c2 i) (xp : Vec Ideal S2x512x1 .f32) (b : Fin 2) (ii : Fin 512) :
    stepP i xq xk xm xp (ix3 b ii (0 : Fin 1))
      = xp (ix3 b ii (0 : Fin 1)) + ∑ jj : Fin 512, (∑ dd : Fin 128, xq (ix4 b (0 : Fin 1) ii dd) * xk (ix4 b (0 : Fin 1) jj dd))
          * xm (ix4 (0 : Fin 1) (0 : Fin 1) ii jj) := by
  unfold stepP
  rw [if_pos h2, if_neg h1]
  exact (Pay.pay4_apply _ _).trans (Pay.pay10_apply xq xk xm xp b ii)

theorem stepL_first (h1 : c1 i) (h2 : c2 i) (xl : Vec Ideal S512x1 .f32) (ii : Fin 512) :
    stepL i xm xl (ix2 ii (0 : Fin 1)) = 0 + ∑ jj : Fin 512, xm (ix4 (0 : Fin 1) (0 : Fin 1) ii jj) := by
  unfold stepL
  rw [if_pos h2, if_pos h1]
  refine (Pay.pay5_apply _ _ ii).trans ?_
  rw [Pay.pay3_apply]
  exact congrArg (0 + ·) (Finset.sum_congr rfl fun jj _ => Pay.pay7_apply xm ii jj)

theorem stepL_next (h1 : ¬c1 i) (h2 : c2 i) (xl : Vec Ideal S512x1 .f32) (ii : Fin 512) :
    stepL i xm xl (ix2 ii (0 : Fin 1)) = xl (ix2 ii (0 : Fin 1)) + ∑ jj : Fin 512, xm (ix4 (0 : Fin 1) (0 : Fin 1) ii jj) := by
  unfold stepL
  rw [if_pos h2, if_neg h1]
  refine (Pay.pay5_apply _ _ ii).trans ?_
  exact congrArg (xl (ix2 ii (0 : Fin 1)) + ·) (Finset.sum_congr rfl fun jj _ => Pay.pay7_apply xm ii jj)

end Step

/-! ## One column-block's terms, read off the arrays

Over any blocks whose entries are the arrays' entries at head `hd`, row `r` and the columns of column-block `kj`, the
sums over the block's 512 columns are the specification's block terms. -/

section Blocks
variable (xq xk xv : Vec Ideal S2x1x512x128 .f32) (xm : Vec Ideal S1x1x512x512 .f32)
variable (q k v : Cert.Spec.QKV) (Mk : Cert.Spec.MSK) (b : Fin 2) (hd : Fin 16) (r : Fin 2048) (kj : Fin 4) (ii : Fin 512)

theorem blkO_of (d : Fin 128)
    (hq : ∀ dd, xq (ix4 b (0 : Fin 1) ii dd) = q b hd r dd)
    (hk : ∀ jj dd, xk (ix4 b (0 : Fin 1) jj dd) = k b hd (Cert.Spec.jOf kj jj) dd)
    (hv : ∀ jj, xv (ix4 b (0 : Fin 1) jj d) = v b hd (Cert.Spec.jOf kj jj) d)
    (hm : ∀ jj, xm (ix4 (0 : Fin 1) (0 : Fin 1) ii jj) = Mk hd r (Cert.Spec.jOf kj jj)) :
    (∑ jj : Fin 512, ((∑ dd : Fin 128, xq (ix4 b (0 : Fin 1) ii dd) * xk (ix4 b (0 : Fin 1) jj dd))
        * xm (ix4 (0 : Fin 1) (0 : Fin 1) ii jj)) * xv (ix4 b (0 : Fin 1) jj d))
      = Cert.Spec.blkO q k v Mk b hd r d kj := by
  unfold Cert.Spec.blkO Cert.Spec.sc Cert.Spec.raw
  simp only [hq, hk, hv, hm]

theorem blkP_of
    (hq : ∀ dd, xq (ix4 b (0 : Fin 1) ii dd) = q b hd r dd)
    (hk : ∀ jj dd, xk (ix4 b (0 : Fin 1) jj dd) = k b hd (Cert.Spec.jOf kj jj) dd)
    (hm : ∀ jj, xm (ix4 (0 : Fin 1) (0 : Fin 1) ii jj) = Mk hd r (Cert.Spec.jOf kj jj)) :
    (∑ jj : Fin 512, (∑ dd : Fin 128, xq (ix4 b (0 : Fin 1) ii dd) * xk (ix4 b (0 : Fin 1) jj dd))
        * xm (ix4 (0 : Fin 1) (0 : Fin 1) ii jj))
      = Cert.Spec.blkP q k Mk b hd r kj := by
  unfold Cert.Spec.blkP Cert.Spec.sc Cert.Spec.raw
  simp only [hq, hk, hm]

theorem blkL_of
    (hm : ∀ jj, xm (ix4 (0 : Fin 1) (0 : Fin 1) ii jj) = Mk hd r (Cert.Spec.jOf kj jj)) :
    (∑ jj : Fin 512, xm (ix4 (0 : Fin 1) (0 : Fin 1) ii jj)) = Cert.Spec.blkL Mk hd r kj := by
  unfold Cert.Spec.blkL
  simp only [hm]

end Blocks

/-! ## The sums after a point, by induction along the row-block's run -/

/-- Column `jj` of the point's k, v and mask blocks is column `jj` of column-block `t % 4`, where that is at most the
    row-block (`min(column-block, row-block) = column-block`). -/
theorem col_eq (t : Fin cfg0.N) (hle : t.val % 4 ≤ t.val / 4 % 4) (jj : Fin 512) :
    rowOf (min (t.val % 4) (t.val / 4 % 4)) (by omega) jj = Cert.Spec.jOf ⟨t.val % 4, Nat.mod_lt _ (by norm_num)⟩ jj :=
  Fin.ext (by
    show 512 * (min (t.val % 4) (t.val / 4 % 4)) + jj.val = 512 * (t.val % 4) + jj.val
    rw [min_eq_left hle])

/-- After point `n` the three sums hold the partial sums up to column-block `k`, for the head and the row given by
    their values. -/
def SumsAt (c : Dev nD) (n : ℕ) (hn : n < cfg0.N) (k : ℕ) : Prop :=
  ∀ (b : Fin 2) (ii : Fin 512) (d : Fin 128) (hd : Fin 16) (i : Fin 2048), hd.val = n / 16 → i.val = 512 * (n / 4 % 4) + ii.val →
    (stAt m c n hn).1 (ix3 b ii d) = Cert.Spec.psum (Cert.Spec.blkO (Q m c) (K m c) (W m c) (M m c) b hd i d) k
    ∧ (stAt m c n hn).2.1 (ix3 b ii (0 : Fin 1)) = Cert.Spec.psum (Cert.Spec.blkP (Q m c) (K m c) (M m c) b hd i) k
    ∧ (stAt m c n hn).2.2 (ix2 ii (0 : Fin 1)) = Cert.Spec.psum (Cert.Spec.blkL (M m c) hd i) k

/-- One point: at column-block 0 the sums restart and take block 0's terms; at a later column-block up to the
    row-block's own they add the block's terms to what the point before (same head, same row-block) left. -/
theorem sums_step (c : Dev nD) (t : Fin cfg0.N) (hle : t.val % 4 ≤ t.val / 4 % 4)
    (ih : ∀ k, t.val % 4 = k + 1 → SumsAt m c (t.val - 1) (Nat.lt_of_le_of_lt (Nat.sub_le _ _) t.isLt) k) :
    SumsAt m c t.val t.isLt (t.val % 4) := by
  intro b ii d hd i hhd hi
  obtain rfl : hd = headOf t := Fin.ext hhd
  obtain rfl : i = rowOf (t.val / 4 % 4) (Nat.mod_lt _ (by norm_num)) ii := Fin.ext hi
  have h2 : c2 (grid0.coords t) := (hc2 t).mpr hle
  have eO := (stepO_eq m c t (stAt m c (t.val - 1) (Nat.lt_of_le_of_lt (Nat.sub_le _ _) t.isLt)).1 (fun _ => rfl)).symm
  have eP := (stepP_eq m c t (stAt m c (t.val - 1) (Nat.lt_of_le_of_lt (Nat.sub_le _ _) t.isLt)).2.1 (fun _ => rfl)).symm
  have eL := (stepL_eq m c t (stAt m c (t.val - 1) (Nat.lt_of_le_of_lt (Nat.sub_le _ _) t.isLt)).2.2 (fun _ => rfl)).symm
  have hk4 : t.val % 4 < 4 := Nat.mod_lt _ (by norm_num)
  -- the point's blocks are the arrays' at the head, the row-block's row and column-block `t % 4`'s columns
  have hq : ∀ dd, (iblk m c 0 t : Vec Ideal S2x1x512x128 .f32) (ix4 b (0 : Fin 1) ii dd)
      = Q m c b (headOf t) (rowOf (t.val / 4 % 4) (Nat.mod_lt _ (by norm_num)) ii) dd := fun dd => iblk0_apply m c t b ii dd
  have hk : ∀ jj dd, (iblk m c 1 t : Vec Ideal S2x1x512x128 .f32) (ix4 b (0 : Fin 1) jj dd)
      = K m c b (headOf t) (Cert.Spec.jOf ⟨t.val % 4, hk4⟩ jj) dd :=
    fun jj dd => (iblk1_apply m c t b jj dd).trans (congrArg (fun j => K m c b (headOf t) j dd) (col_eq t hle jj))
  have hv : ∀ jj, (iblk m c 2 t : Vec Ideal S2x1x512x128 .f32) (ix4 b (0 : Fin 1) jj d)
      = W m c b (headOf t) (Cert.Spec.jOf ⟨t.val % 4, hk4⟩ jj) d :=
    fun jj => (iblk2_apply m c t b jj d).trans (congrArg (fun j => W m c b (headOf t) j d) (col_eq t hle jj))
  have hm : ∀ jj, (iblk m c 3 t : Vec Ideal S1x1x512x512 .f32) (ix4 (0 : Fin 1) (0 : Fin 1) ii jj)
      = M m c (headOf t) (rowOf (t.val / 4 % 4) (Nat.mod_lt _ (by norm_num)) ii) (Cert.Spec.jOf ⟨t.val % 4, hk4⟩ jj) :=
    fun jj => (iblk3_apply m c t ii jj).trans
      (congrArg (fun j => M m c (headOf t) (rowOf (t.val / 4 % 4) (Nat.mod_lt _ (by norm_num)) ii) j) (col_eq t hle jj))
  have bO := blkO_of (iblk m c 0 t) (iblk m c 1 t) (iblk m c 2 t) (iblk m c 3 t) (Q m c) (K m c) (W m c) (M m c) b (headOf t)
    (rowOf (t.val / 4 % 4) (Nat.mod_lt _ (by norm_num)) ii) ⟨t.val % 4, hk4⟩ ii d hq hk hv hm
  have bP := blkP_of (iblk m c 0 t) (iblk m c 1 t) (iblk m c 3 t) (Q m c) (K m c) (M m c) b (headOf t)
    (rowOf (t.val / 4 % 4) (Nat.mod_lt _ (by norm_num)) ii) ⟨t.val % 4, hk4⟩ ii hq hk hm
  have bL := blkL_of (iblk m c 3 t) (M m c) (headOf t)
    (rowOf (t.val / 4 % 4) (Nat.mod_lt _ (by norm_num)) ii) ⟨t.val % 4, hk4⟩ ii hm
  by_cases h0 : t.val % 4 = 0
  · have h1 : c1 (grid0.coords t) := (hc1 t).mpr h0
    refine ⟨?_, ?_, ?_⟩
    · exact ((congrFun eO _).trans (stepO_first (grid0.coords t) (iblk m c 0 t) (iblk m c 1 t) (iblk m c 2 t) (iblk m c 3 t) h1 h2 _ b ii d)).trans
        ((congrArg (fun x => 0 + x) bO).trans (psum_zero' _ _ hk4 h0))
    · exact ((congrFun eP _).trans (stepP_first (grid0.coords t) (iblk m c 0 t) (iblk m c 1 t) (iblk m c 3 t) h1 h2 _ b ii)).trans
        ((congrArg (fun x => 0 + x) bP).trans (psum_zero' _ _ hk4 h0))
    · exact ((congrFun eL _).trans (stepL_first (grid0.coords t) (iblk m c 3 t) h1 h2 _ ii)).trans
        ((congrArg (fun x => 0 + x) bL).trans (psum_zero' _ _ hk4 h0))
  · have h1 : ¬c1 (grid0.coords t) := fun h => h0 ((hc1 t).mp h)
    obtain ⟨k, hk1⟩ : ∃ k, t.val % 4 = k + 1 := ⟨t.val % 4 - 1, by omega⟩
    obtain ⟨iO, iP, iL⟩ := ih k hk1 b ii d (headOf t) (rowOf (t.val / 4 % 4) (Nat.mod_lt _ (by norm_num)) ii)
      (by show t.val / 16 = (t.val - 1) / 16; omega)
      (by show 512 * (t.val / 4 % 4) + ii.val = 512 * ((t.val - 1) / 4 % 4) + ii.val; omega)
    refine ⟨?_, ?_, ?_⟩
    · exact ((congrFun eO _).trans (stepO_next (grid0.coords t) (iblk m c 0 t) (iblk m c 1 t) (iblk m c 2 t) (iblk m c 3 t) h1 h2 _ b ii d)).trans
        ((congrArg₂ (fun x y => x + y) iO bO).trans (psum_step _ k _ hk4 hk1))
    · exact ((congrFun eP _).trans (stepP_next (grid0.coords t) (iblk m c 0 t) (iblk m c 1 t) (iblk m c 3 t) h1 h2 _ b ii)).trans
        ((congrArg₂ (fun x y => x + y) iP bP).trans (psum_step _ k _ hk4 hk1))
    · exact ((congrFun eL _).trans (stepL_next (grid0.coords t) (iblk m c 3 t) h1 h2 _ ii)).trans
        ((congrArg₂ (fun x y => x + y) iL bL).trans (psum_step _ k _ hk4 hk1))

theorem sums_aux (c : Dev nD) : ∀ (n : ℕ) (hn : n < cfg0.N), n % 4 ≤ n / 4 % 4 → SumsAt m c n hn (n % 4) := by
  intro n
  induction n using Nat.strong_induction_on with
  | _ n IH =>
    intro hn hle
    refine sums_step m c ⟨n, hn⟩ hle (fun k hk => ?_)
    have hn' : n - 1 < cfg0.N := Nat.lt_of_le_of_lt (Nat.sub_le _ _) hn
    have hk' : n % 4 = k + 1 := hk
    have e : (n - 1) % 4 = k := by omega
    have hprev := IH (n - 1) (by omega) hn' (by omega)
    rw [e] at hprev
    exact hprev

/-- After a point whose column-block is at most its row-block, the three sums at row `ii` of the row-block are the
    partial sums over the column-blocks up to the point's. -/
theorem sums_at (c : Dev nD) (t : Fin cfg0.N) (hle : t.val % 4 ≤ t.val / 4 % 4) (b : Fin 2) (ii : Fin 512) (d : Fin 128) :
    (stAt m c t.val t.isLt).1 (ix3 b ii d)
        = Cert.Spec.psum (Cert.Spec.blkO (Q m c) (K m c) (W m c) (M m c) b (headOf t)
            (rowOf (t.val / 4 % 4) (Nat.mod_lt _ (by norm_num)) ii) d) (t.val % 4)
    ∧ (stAt m c t.val t.isLt).2.1 (ix3 b ii (0 : Fin 1))
        = Cert.Spec.psum (Cert.Spec.blkP (Q m c) (K m c) (M m c) b (headOf t)
            (rowOf (t.val / 4 % 4) (Nat.mod_lt _ (by norm_num)) ii)) (t.val % 4)
    ∧ (stAt m c t.val t.isLt).2.2 (ix2 ii (0 : Fin 1))
        = Cert.Spec.psum (Cert.Spec.blkL (M m c) (headOf t)
            (rowOf (t.val / 4 % 4) (Nat.mod_lt _ (by norm_num)) ii)) (t.val % 4) :=
  sums_aux m c t.val t.isLt hle b ii d (headOf t) (rowOf (t.val / 4 % 4) (Nat.mod_lt _ (by norm_num)) ii) rfl rfl

/-! ## The output block: written where the column-block meets the row-block, kept to the run's last point -/

theorem outAt_congr (c : Dev nD) (n n' : ℕ) (hn : n < cfg0.N) (hn' : n' < cfg0.N) (h : n = n') :
    outAt m c n hn = outAt m c n' hn' := by
  subst h; rfl

/-- The output block's buffer is kept over points whose column-block is not the row-block's. -/
theorem outAt_hold (c : Dev nD) (n : ℕ) : ∀ (j : ℕ) (hn : n + j < cfg0.N),
    (∀ s, n < s → s ≤ n + j → s % 4 ≠ s / 4 % 4) →
    outAt m c (n + j) hn = outAt m c n (Nat.lt_of_le_of_lt (Nat.le_add_right _ _) hn) := by
  intro j
  induction j with
  | zero => intro hn _; rfl
  | succ j ih =>
    intro hn hs
    have hn1 : n + j < cfg0.N := by omega
    have h3 : ¬c3 (grid0.coords ⟨n + (j + 1), hn⟩) :=
      fun h => hs (n + (j + 1)) (by omega) (le_refl _) ((hc3 ⟨n + (j + 1), hn⟩).mp h)
    exact ((outAt_not_c3 m c ⟨n + (j + 1), hn⟩ (by show n + (j + 1) ≠ 0; omega) h3).trans
      (outAt_congr m c _ _ _ hn1 (by show n + (j + 1) - 1 = n + j; omega))).trans
      (ih hn1 (fun s h1 h2 => hs s h1 (by omega)))

/-- The arithmetic of a row-block's run. Its last point is `tv = 4q + 3` with row-block `r = q % 4`; the point `n = 4q + r`,
    `j = 3 - r` points earlier, has the same head and row-block and its column-block is `r`; the points after it up to
    the last have column-blocks above `r`. -/
theorem run_arith (tv : ℕ) (hf : tv % 4 = 3) (j n : ℕ) (hj : j + tv / 4 % 4 = 3) (hn : n + j = tv) :
    n / 4 = tv / 4 ∧ n % 4 = tv / 4 % 4 ∧ n / 16 = tv / 16 ∧ (∀ s, n < s → s ≤ n + j → s % 4 ≠ s / 4 % 4) := by
  obtain ⟨q, hq⟩ : ∃ q, tv = 4 * q + 3 := ⟨tv / 4, by omega⟩
  have hq4 : tv / 4 = q := by omega
  rw [hq4] at hj ⊢
  obtain ⟨w, r, hr, hw⟩ : ∃ w r, r < 4 ∧ q = 4 * w + r := ⟨q / 4, q % 4, Nat.mod_lt _ (by norm_num), by omega⟩
  have hqr : q % 4 = r := by omega
  rw [hqr] at hj ⊢
  have hnv : n = 4 * q + r := by omega
  have h1 : n / 4 = q := by omega
  refine ⟨h1, by omega, by omega, fun s hs1 hs2 => ?_⟩
  have hs4 : s / 4 = q := by omega
  rw [hs4, hqr]
  omega

/-- At a row-block's last point the output block holds the kernel's formula: the quotient stored where the
    column-block met the row-block (there the sums are the partial sums up to the row-block's own), kept since. -/
theorem out_at_flush (c : Dev nD) (t : Fin cfg0.N) (hf : t.val % 4 = 3) (b : Fin 2) (ii : Fin 512) (d : Fin 128) :
    outAt m c t.val t.isLt (ix4 b (0 : Fin 1) ii d)
      = Cert.Spec.kerVal (Q m c) (K m c) (W m c) (M m c) b (headOf t)
          (rowOf (t.val / 4 % 4) (Nat.mod_lt _ (by norm_num)) ii) d := by
  have hN : cfg0.N = 256 := N_0
  have htl := t.isLt
  have hrb : t.val / 4 % 4 < 4 := Nat.mod_lt _ (by norm_num)
  -- `n`: the point of the run where the column-block meets the row-block, `j` points before the run's last
  obtain ⟨j, hj⟩ : ∃ j, j + t.val / 4 % 4 = 3 := ⟨3 - t.val / 4 % 4, by omega⟩
  obtain ⟨n, hn⟩ : ∃ n, n + j = t.val := ⟨t.val - j, by omega⟩
  obtain ⟨a1, a2, a3, a4⟩ := run_arith t.val hf j n hj hn
  have hnq : n + j < cfg0.N := by omega
  have hnq' : n < cfg0.N := by omega
  have e1 : outAt m c t.val t.isLt = outAt m c n hnq' :=
    (outAt_congr m c _ _ t.isLt hnq hn.symm).trans (outAt_hold m c n j hnq a4)
  have hnn : n % 4 = n / 4 % 4 := by rw [a1]; exact a2
  have h3 : c3 (grid0.coords ⟨n, hnq'⟩) := (hc3 ⟨n, hnq'⟩).mpr hnn
  have e2 : outAt m c n hnq' = k0_pay6 (stAt m c n hnq').2.2 (stAt m c n hnq').2.1 (stAt m c n hnq').1 :=
    outAt_c3 m c ⟨n, hnq'⟩ h3
  obtain ⟨sO, sP, sL⟩ := sums_aux m c n hnq' (le_of_eq hnn) b ii d (headOf t)
    (rowOf (t.val / 4 % 4) (Nat.mod_lt _ (by norm_num)) ii) (by show t.val / 16 = n / 16; exact a3.symm)
    (by show 512 * (t.val / 4 % 4) + ii.val = 512 * (n / 4 % 4) + ii.val; rw [a1])
  have ek : n % 4 = (rowOf (t.val / 4 % 4) (Nat.mod_lt _ (by norm_num)) ii).val / 512 := by
    show n % 4 = (512 * (t.val / 4 % 4) + ii.val) / 512
    have := ii.isLt
    omega
  rw [ek] at sO sP sL
  rw [e1]
  refine ((congrFun e2 _).trans (Pay.pay6_apply _ _ _ b ii d)).trans ?_
  rw [sO, sP, sL]
  rfl

end Cert.KernelIdeal.Val
end
-- ==== Proof.KIValue2.lean ====
import proofs.«156671_j46643344835366_1_alg».proof.Proof.KIValDefs
import Idealize.ShloMosaic.Lib.Pipeline.Value
import Idealize.ShloMosaic.Lib.ValueIdx

/-
  From the output's blocks to the output array. Grid point t is (head, row-block, column-block) = (t / 16, t / 4 % 4, t % 4).
  The output window's block at t is rows 512·(t / 4 % 4) … 512·(t / 4 % 4) + 511 of head t / 16, for both batches and all
  128 features, and it is written back at the last column-block (t % 4 = 3). Given that what such a point writes back is
  the result function at the block's rows, the 64 written blocks tile the array, so the array ends holding the result
  function: index (b, h, i, d) lies in the block of point 16·h + 4·(i / 512) + 3.
-/

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ)

/-- The output window's block index at point t: (0, t / 16, t / 4 % 4, 0). -/
theorem idx_out : ∀ t : Fin cfg0.N, win0_4.index t (0 : Fin 4) = 0 ∧ win0_4.index t (1 : Fin 4) = t.val / 16
    ∧ win0_4.index t (2 : Fin 4) = t.val / 4 % 4 ∧ win0_4.index t (3 : Fin 4) = 0 :=
  (by decide +kernel : ∀ t : Fin grid0.N, win0_4.index t (0 : Fin 4) = 0 ∧ win0_4.index t (1 : Fin 4) = t.val / 16
    ∧ win0_4.index t (2 : Fin 4) = t.val / 4 % 4 ∧ win0_4.index t (3 : Fin 4) = 0)

/-- Where element (b, 0, ii, d) of point t's block sits in the array: (b, t / 16, 512·(t / 4 % 4) + ii, d). -/
theorem emb_out (t : Fin cfg0.N) (b : Fin 2) (ii : Fin 512) (d : Fin 128) :
    ((cfg0.win 4).blk t).view.emb (ix4 b (0 : Fin 1) ii d)
      = ix4 b (headOf t) (rowOf (t.val / 4 % 4) (Nat.mod_lt _ (by norm_num)) ii) d := by
  obtain ⟨e0, e1, e2, e3⟩ := idx_out t
  funext a; apply Fin.ext
  match a with
  | ⟨0, _⟩ => show win0_4.index t (0 : Fin 4) * 2 + 1 * b.val = b.val; omega
  | ⟨1, _⟩ => show win0_4.index t (1 : Fin 4) * 1 + 1 * 0 = t.val / 16; omega
  | ⟨2, _⟩ => show win0_4.index t (2 : Fin 4) * 512 + 1 * ii.val = 512 * (t.val / 4 % 4) + ii.val; omega
  | ⟨3, _⟩ => show win0_4.index t (3 : Fin 4) * 128 + 1 * d.val = d.val; omega

/-- An index of the array is in point t's block iff each coordinate is in the block's range on its axis. -/
theorem mem_blk_out (t : Fin cfg0.N) (i : S2x16x2048x128.Idx) :
    i ∈ ((cfg0.win 4).blk t).view.set ↔ ∀ a : Fin 4, win0_4.index t a * S2x1x512x128.size a ≤ (i a).val
      ∧ (i a).val < win0_4.index t a * S2x1x512x128.size a + S2x1x512x128.size a := by
  show i ∈ ((View.whole main_v0).slice (win0_4.rect t)).set ↔ _
  rw [View.set_slice_whole, Rect.mem_set_unit]
  exact Iff.rfl

/-- Index (b, h, r, d) of the array lies in the block of the writing point 16·h + 4·(r / 512) + 3. -/
theorem cover_out (b : Fin 2) (h : Fin 16) (r : Fin 2048) (d : Fin 128) (n : ℕ) (hn : n < cfg0.N)
    (e : n = 16 * h.val + 4 * (r.val / 512) + 3) :
    (cfg0.win 4).flush ⟨n, hn⟩ = true ∧ ix4 b h r d ∈ ((cfg0.win 4).blk ⟨n, hn⟩).view.set := by
  obtain ⟨e0, e1, e2, e3⟩ := idx_out ⟨n, hn⟩
  have e1' : win0_4.index ⟨n, hn⟩ (1 : Fin 4) = n / 16 := e1
  have e2' : win0_4.index ⟨n, hn⟩ (2 : Fin 4) = n / 4 % 4 := e2
  clear e1 e2
  have hb : b.val < 2 := b.isLt
  have hh : h.val < 16 := h.isLt
  have hr : r.val < 2048 := r.isLt
  have hd : d.val < 128 := d.isLt
  refine ⟨(flush0_4 _).mpr (by show n % 4 = 3; omega), ?_⟩
  rw [mem_blk_out]
  intro a
  match a with
  | ⟨0, _⟩ => show win0_4.index ⟨n, hn⟩ (0 : Fin 4) * 2 ≤ b.val ∧ b.val < win0_4.index ⟨n, hn⟩ (0 : Fin 4) * 2 + 2; omega
  | ⟨1, _⟩ => show win0_4.index ⟨n, hn⟩ (1 : Fin 4) * 1 ≤ h.val ∧ h.val < win0_4.index ⟨n, hn⟩ (1 : Fin 4) * 1 + 1; omega
  | ⟨2, _⟩ => show win0_4.index ⟨n, hn⟩ (2 : Fin 4) * 512 ≤ r.val ∧ r.val < win0_4.index ⟨n, hn⟩ (2 : Fin 4) * 512 + 512; omega
  | ⟨3, _⟩ => show win0_4.index ⟨n, hn⟩ (3 : Fin 4) * 128 ≤ d.val ∧ d.val < win0_4.index ⟨n, hn⟩ (3 : Fin 4) * 128 + 128; omega

section
variable (hflush : ∀ (c : Dev nD) (t : Fin cfg0.N), t.val % 4 = 3 → ∀ (b : Fin 2) (ii : Fin 512) (d : Fin 128),
      outAt m c t.val t.isLt (ix4 b (0 : Fin 1) ii d) = Cert.Spec.kerVal (Q m c) (K m c) (W m c) (M m c) b (headOf t) (rowOf (t.val / 4 % 4) (Nat.mod_lt _ (by norm_num)) ii) d)
include hflush

/-- What a writing point writes back is its block of the result function. -/
theorem flushed_out (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  show (cfg0.win 4).cut (grid0.coords t) ((dats m 0 c).after 4 t) = _
  rw [after0_4]
  refine funext fun (y : S2x1x512x128.Idx) => ?_
  obtain ⟨b, z, ii, d, rfl⟩ : ∃ (b : Fin 2) (z : Fin 1) (ii : Fin 512) (d : Fin 128), y = ix4 b z ii d :=
    ⟨y 0, y 1, y 2, y 3, eq_ix4 y⟩
  obtain rfl : z = 0 := Subsingleton.elim _ _
  show outAt m c t.val t.isLt (ix4 b (0 : Fin 1) ii d) = G m c (((cfg0.win 4).blk t).view.emb (ix4 b (0 : Fin 1) ii d))
  rw [hflush c t h3 b ii d, emb_out t b ii d]
  rfl

/-- The written blocks tile the array, so it ends holding the result function. -/
theorem final (c : Dev nD) : (dats m 0 c).arrAt 4 cfg0.N = G m c :=
  (dats m 0 c).arrAt_eq_of_cover 4 (G m c) (fun t hf => flushed_out m hflush c t hf) fun (i : S2x16x2048x128.Idx) => by
    obtain ⟨b, h, r, d, rfl⟩ : ∃ (b : Fin 2) (h : Fin 16) (r : Fin 2048) (d : Fin 128), i = ix4 b h r d :=
      ⟨i 0, i 1, i 2, i 3, eq_ix4 i⟩
    have hN : cfg0.N = 256 := N_0
    have hh : h.val < 16 := h.isLt
    have hr : r.val < 2048 := r.isLt
    exact ⟨⟨16 * h.val + 4 * (r.val / 512) + 3, by omega⟩, cover_out b h r d _ _ rfl⟩

end

end Cert.KernelIdeal.Val

end
-- ==== Proof.KIRun.lean ====
/-
  The idealized kernel's run with its result array named: every weakly fair execution ends with the result at one
  function `G` of the argument arrays — (O / L) / max(|P / L|, 1) of the three sums over the column-blocks up to each
  row's own — and the arguments unchanged.
-/
import proofs.«156671_j46643344835366_1_alg».proof.Proof.KIFrame
import proofs.«156671_j46643344835366_1_alg».proof.Proof.KIValue1
import proofs.«156671_j46643344835366_1_alg».proof.Proof.KIValue2

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Body

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m (fun c t hf b ii d => out_at_flush m c t hf b ii d) c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (Body.run_main m ρ)

end Cert.KernelIdeal.Val
end
-- ==== Proof.RefValue.lean ====
import proofs.«156671_j46643344835366_1_alg».proof.Proof.Gen.ReferenceIdeal.Read
import proofs.«156671_j46643344835366_1_alg».proof.Proof.Spec
import Idealize.ShloMosaic.Lib.ValueIdx
import Idealize.ShloMosaic.PureOps.Ideal.Laws
import Idealize.ShloMosaic.Lib.IdealHost

/-
  The reference program's result, read at the index (b, h, i, d), is the formula Cert.Spec.refVal of the four argument
  arrays. Each operation of the program is read at an index built from literal coordinates; the layout operations
  (broadcasts, the reshape of the mask) only move coordinates, the two contractions and the two row sums stay sums over
  one coordinate, and the pointwise operations are the extended reals' own.
-/

noncomputable section

namespace Cert.RefValue

open Idealize.ShloMosaic Idealize.ShloMosaic.ValueIdx
open Cert.ReferenceIdeal Cert.ReferenceIdeal.Read

/-- The four argument arrays as functions of their coordinates. -/
def arr4 (x : FVec Ideal Cert.ReferenceIdeal.S2x16x2048x128 .f32) : Cert.Spec.QKV := fun b h i d => x (ix4 b h i d)
def msk (x : FVec Ideal Cert.ReferenceIdeal.S1x16x2048x2048 .f32) : Cert.Spec.MSK := fun h i j => x (ix4 (0 : Fin 1) h i j)

/-! ## Where the layout operations send a coordinate tuple -/

/-- The two broadcasts of the mask's row sum forget the batch and the feature coordinate. -/
theorem idx_L (b : Fin 2) (h : Fin 16) (i : Fin 2048) (d : Fin 128) :
    idx_main_v2 (idx_main_v3 (ix4 b h i d)) = ix3 (0 : Fin 1) h i :=
  funext fun a => Fin.ext (by match a with | ⟨0, _⟩ => rfl | ⟨1, _⟩ => rfl | ⟨2, _⟩ => rfl)

/-- The row sum of the mask adds up the last coordinate. -/
theorem idx_sumM (h : Fin 16) (i : Fin 2048) (j : Fin 2048) :
    idx_main_v1 (ix3 (0 : Fin 1) h i) j = ix4 (0 : Fin 1) h i j :=
  funext fun a => Fin.ext (by match a with | ⟨0, _⟩ => rfl | ⟨1, _⟩ => rfl | ⟨2, _⟩ => rfl | ⟨3, _⟩ => rfl)

/-- The first contraction pairs row i of the left operand with row j of the right one. -/
theorem lidx_S (b : Fin 2) (h : Fin 16) (i j : Fin 2048) (dd : Fin 128) :
    lidx_main_v5 (ix4 b h i j) dd = ix4 b h i dd :=
  funext fun a => Fin.ext (by match a with | ⟨0, _⟩ => rfl | ⟨1, _⟩ => rfl | ⟨2, _⟩ => rfl | ⟨3, _⟩ => rfl)
theorem ridx_S (b : Fin 2) (h : Fin 16) (i j : Fin 2048) (dd : Fin 128) :
    ridx_main_v5 (ix4 b h i j) dd = ix4 b h j dd :=
  funext fun a => Fin.ext (by match a with | ⟨0, _⟩ => rfl | ⟨1, _⟩ => rfl | ⟨2, _⟩ => rfl | ⟨3, _⟩ => rfl)

/-- The mask reaches the scores through a reshape to three axes and two broadcasts back: the composite forgets the
    batch coordinate (row-major position (h·2048 + i)·2048 + j read back as (h, i, j)). -/
theorem idx_M (b : Fin 2) (h : Fin 16) (i j : Fin 2048) :
    idx_main_v0 (idx_main_v6 (idx_main_v7 (ix4 b h i j))) = ix4 (0 : Fin 1) h i j :=
  funext fun a => Fin.ext (by
    have hh : h.val < 16 := h.isLt
    have hi : i.val < 2048 := i.isLt
    have hj : j.val < 2048 := j.isLt
    match a with
    | ⟨0, _⟩ => rfl
    | ⟨1, _⟩ => show ((h.val * 2048 + i.val) * 2048 + j.val) / 4194304 % 16 = h.val; omega
    | ⟨2, _⟩ => show ((h.val * 2048 + i.val) * 2048 + j.val) / 2048 % 2048 = i.val; omega
    | ⟨3, _⟩ => show ((h.val * 2048 + i.val) * 2048 + j.val) % 2048 = j.val; omega)

/-- The row sum of the scores adds up the last coordinate. -/
theorem idx_sumS (b : Fin 2) (h : Fin 16) (i : Fin 2048) (j : Fin 2048) :
    idx_main_v9 (ix3 b h i) j = ix4 b h i j :=
  funext fun a => Fin.ext (by match a with | ⟨0, _⟩ => rfl | ⟨1, _⟩ => rfl | ⟨2, _⟩ => rfl | ⟨3, _⟩ => rfl)

/-- The two broadcasts of the clipped row sum forget the feature coordinate. -/
theorem idx_P (b : Fin 2) (h : Fin 16) (i : Fin 2048) (d : Fin 128) :
    idx_main_v12 (idx_main_v14 (ix4 b h i d)) = ix3 b h i :=
  funext fun a => Fin.ext (by match a with | ⟨0, _⟩ => rfl | ⟨1, _⟩ => rfl | ⟨2, _⟩ => rfl)

/-- The second contraction pairs column j of the scores' row i with row j of the values. -/
theorem lidx_O (b : Fin 2) (h : Fin 16) (i : Fin 2048) (d : Fin 128) (j : Fin 2048) :
    lidx_main_v13 (ix4 b h i d) j = ix4 b h i j :=
  funext fun a => Fin.ext (by match a with | ⟨0, _⟩ => rfl | ⟨1, _⟩ => rfl | ⟨2, _⟩ => rfl | ⟨3, _⟩ => rfl)
theorem ridx_O (b : Fin 2) (h : Fin 16) (i : Fin 2048) (d : Fin 128) (j : Fin 2048) :
    ridx_main_v13 (ix4 b h i d) j = ix4 b h j d :=
  funext fun a => Fin.ext (by match a with | ⟨0, _⟩ => rfl | ⟨1, _⟩ => rfl | ⟨2, _⟩ => rfl | ⟨3, _⟩ => rfl)

/-! ## The stages, one at a time -/

/-- The mask's row sum. -/
theorem rowsum_mask (x3 : FVec Ideal S1x16x2048x2048 .f32) (h : Fin 16) (i : Fin 2048) :
    val_main_v1 (F := Ideal) x3 (ix3 (0 : Fin 1) h i) = Cert.Spec.refL (msk x3) h i := by
  rw [val_main_v1_apply, val_main_cst_apply]
  simp only [Ideal.ofBits_def, Ideal.ofBits_zero_f32, idx_sumM]
  rfl

/-- q divided by the mask's row sum. -/
theorem scaled_q (x0 : FVec Ideal S2x16x2048x128 .f32) (x3 : FVec Ideal S1x16x2048x2048 .f32)
    (b : Fin 2) (h : Fin 16) (i : Fin 2048) (d : Fin 128) :
    val_main_v4 (F := Ideal) x0 x3 (ix4 b h i d) = Ideal.div (arr4 x0 b h i d) (Cert.Spec.refL (msk x3) h i) := by
  rw [val_main_v4_apply, val_main_v3_apply, val_main_v2_apply, idx_L, rowsum_mask]
  rfl

/-- The mask as the scores meet it. -/
theorem mask_at (x3 : FVec Ideal S1x16x2048x2048 .f32) (b : Fin 2) (h : Fin 16) (i j : Fin 2048) :
    val_main_v7 (F := Ideal) x3 (ix4 b h i j) = msk x3 h i j := by
  rw [val_main_v7_apply, val_main_v6_apply, val_main_v0_apply, idx_M]
  rfl

/-- The masked scores. -/
theorem scores (x0 x1 : FVec Ideal S2x16x2048x128 .f32) (x3 : FVec Ideal S1x16x2048x2048 .f32)
    (b : Fin 2) (h : Fin 16) (i j : Fin 2048) :
    val_main_v8 (F := Ideal) x0 x1 x3 (ix4 b h i j) = Cert.Spec.refS (arr4 x0) (arr4 x1) (msk x3) b h i j := by
  rw [val_main_v8_apply, val_main_v5_apply, mask_at]
  simp only [lidx_S, ridx_S, scaled_q, Ideal.mulf_def]
  rfl

/-- The clipped absolute row sum of the scores. -/
theorem clipped (x0 x1 : FVec Ideal S2x16x2048x128 .f32) (x3 : FVec Ideal S1x16x2048x2048 .f32)
    (b : Fin 2) (h : Fin 16) (i : Fin 2048) :
    val_main_v11 (F := Ideal) x0 x1 x3 (ix3 b h i)
      = max 1 (max (0 + ∑ j : Fin 2048, Cert.Spec.refS (arr4 x0) (arr4 x1) (msk x3) b h i j)
          (-(0 + ∑ j : Fin 2048, Cert.Spec.refS (arr4 x0) (arr4 x1) (msk x3) b h i j))) := by
  rw [val_main_v11_apply, val_main_call0_v1_apply, val_main_call0_v0_apply, val_main_cst_1_apply,
    val_main_v10_apply, val_main_v9_apply, val_main_cst_0_apply]
  simp only [Ideal.ofBits_def, Ideal.ofBits_zero_f32, Ideal.ofBits_one_f32, idx_sumS, scores, Ideal.maximumf_def,
    Ideal.hostAbsf_def, Ideal.absf_def]

/-- The scores times the values. -/
theorem weighted (x0 x1 x2 : FVec Ideal S2x16x2048x128 .f32) (x3 : FVec Ideal S1x16x2048x2048 .f32)
    (b : Fin 2) (h : Fin 16) (i : Fin 2048) (d : Fin 128) :
    val_main_v13 (F := Ideal) x0 x1 x2 x3 (ix4 b h i d)
      = ∑ j : Fin 2048, Cert.Spec.refS (arr4 x0) (arr4 x1) (msk x3) b h i j * arr4 x2 b h j d := by
  rw [val_main_v13_apply]
  simp only [lidx_O, ridx_O, scores]
  rfl

/-- The reference's result at (b, h, i, d). -/
theorem ref_is_spec (x0 x1 x2 : FVec Ideal Cert.ReferenceIdeal.S2x16x2048x128 .f32)
    (x3 : FVec Ideal Cert.ReferenceIdeal.S1x16x2048x2048 .f32)
    (b : Fin 2) (h : Fin 16) (i : Fin 2048) (d : Fin 128) :
    Cert.ReferenceIdeal.Read.val_main_v15 (F := Ideal) x0 x1 x2 x3 (ix4 b h i d)
      = Cert.Spec.refVal (arr4 x0) (arr4 x1) (arr4 x2) (msk x3) b h i d := by
  rw [val_main_v15_apply, val_main_v14_apply, val_main_v12_apply, idx_P, clipped, weighted]
  rfl

end Cert.RefValue

end
-- ==== Proof.PreFacts.lean ====
/-
  The precondition, read back. The printed predicate is a conjunction of five whole-array conjunctions ("for all
  indices"): for each of the four argument arrays, |x| < +∞ at every entry; and, for the mask (the fourth array, of
  shape [1, 16, 2048, 2048]), at every index (0, h, i, j): i ≥ j or mask = 0. At the ideal instance the floats are
  extended reals, +∞ is ⊤, and |x| is max x (−x); so |x| < ⊤ excludes exactly x = ⊤ and x = ⊥, and the entry is a real
  number. The row and column numbers i, j < 2048 are written as 32-bit words and compared signed; for numbers this
  small the signed reading of the word is the number itself, so above the diagonal (i < j) the first disjunct fails
  and the mask entry equals the pattern of 0.0, the extended real 0.
-/
import proofs.«156671_j46643344835366_1_alg».proof.Pre_finite_inputs
import Idealize.ShloMosaic.Lib.ValueIdx
import Idealize.ShloMosaic.Lib.ReduceAll
import Idealize.ShloMosaic.Lib.IdealHost
import Idealize.ShloMosaic.PureOps.Ideal.Laws

namespace Cert.PreFacts
open Idealize.ShloMosaic Idealize.ShloMosaic.ValueIdx

/-- The rank-0 shape has exactly one index (the empty tuple). -/
local instance : Subsingleton Cert.Pre_finite_inputs.S_.Idx := ⟨fun a b => funext fun d => d.elim0⟩

/-- An extended real with |x| = max x (−x) strictly below ⊤ is a real number: at x = ⊥ the maximum is −⊥ = ⊤, at
    x = ⊤ it is ⊤, and ⊤ < ⊤ is false. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The f32 pattern with all exponent bits set and a zero fraction is +∞. -/
theorem ofBits_inf_f32 : Ideal.ofBits .f32 0x7F800000#32 = ⊤ := by simp [Ideal.ofBits, Ideal.ieee]

/-- One entry of the test |x| < +∞ (the bound a scalar broadcast to the array's shape): the entry is a real. -/
theorem finite_at {T : Shape} (hb : (⟨0, ![]⟩ : Shape).BroadcastsInDim T ![]) (x : FVec Ideal T .f32) (i : T.Idx)
    (h : cmpf .olt (Host.absf x) (broadcastInDim T ![] hb (constant (F := Ideal) ⟨0, ![]⟩ .f32 0x7F800000#32)) i = 1#1) :
    ∃ r : ℝ, x i = (r : EReal) := by
  rw [cmpf_apply, broadcastInDim_scalar_apply, constant_apply, ofBits_inf_f32] at h
  exact real_of_abs_lt_top (x i) h

/-- The ordered-equal comparison of two extended reals gives 1 only when they are equal. -/
theorem eq_of_cmp_oeq (x y : EReal) (h : Ideal.cmp .oeq x y = 1#1) : x = y := by
  unfold Ideal.cmp at h
  by_contra hne
  simp [hne] at h

/-- A number below 2048 written as a 32-bit word reads back, signed, as itself (2 · n < 2³², so the top bit is clear). -/
theorem toInt_ofNat_small (n : Nat) (hn : n < 2048) : (BitVec.ofNat 32 n).toInt = (n : Int) := by
  have h1 : (BitVec.ofNat 32 n).toNat = n := by rw [BitVec.toNat_ofNat]; omega
  rw [BitVec.toInt_eq_toNat_of_lt (by omega), h1]

/-- One entry of the test "row ≥ column, or mask = 0.0" strictly above the diagonal: the row number i is below the
    column number j, so the signed comparison i ≥ j of their words is false and the mask entry is 0. -/
theorem zero_above_diag (hb : (⟨0, ![]⟩ : Shape).BroadcastsInDim (⟨4, ![1, 16, 2048, 2048]⟩ : Shape) ![])
    (x : FVec Ideal (⟨4, ![1, 16, 2048, 2048]⟩ : Shape) .f32) (h : Fin 16) (i j : Fin 2048) (hij : i.val < j.val)
    (e : ori (cmpi .sge (iotaInDim (⟨4, ![1, 16, 2048, 2048]⟩ : Shape) 32 2) (iotaInDim (⟨4, ![1, 16, 2048, 2048]⟩ : Shape) 32 3))
          (cmpf .oeq x (broadcastInDim (⟨4, ![1, 16, 2048, 2048]⟩ : Shape) ![] hb (constant (F := Ideal) ⟨0, ![]⟩ .f32 0x00000000#32)))
          (ix4 (0 : Fin 1) h i j) = 1#1) :
    x (ix4 (0 : Fin 1) h i j) = 0 := by
  rcases IntOp.ori_eq_one.1 e with e1 | e2
  · -- the iota along axis 2 reads the row number i, along axis 3 the column number j
    exfalso
    have e1' : IntOp.cmpi .sge (BitVec.ofNat 32 i.val) (BitVec.ofNat 32 j.val) = 1#1 := e1
    rw [IntOp.cmpi_sge, toInt_ofNat_small _ i.isLt, toInt_ofNat_small _ j.isLt] at e1'
    omega
  · rw [cmpf_apply, broadcastInDim_scalar_apply, constant_apply, Ideal.ofBits_zero_f32] at e2
    exact eq_of_cmp_oeq _ _ e2

/-- The precondition decoded: every entry of the four arrays is a real number, and the mask vanishes strictly above
    the diagonal of its last two axes. -/
theorem decode [Cert.Pre_finite_inputs.Facts]
    (x0 x1 x2 : FVec Ideal Cert.Pre_finite_inputs.S2x16x2048x128 .f32) (x3 : FVec Ideal Cert.Pre_finite_inputs.S1x16x2048x2048 .f32)
    (hpre : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ (h : Fin 16) (i j : Fin 2048), i.val < j.val → x3 (ix4 (0 : Fin 1) h i j) = 0) := by
  -- the predicate's one word is 1; it is the conjunction ((((A0 ∧ A1) ∧ A2) ∧ A3) ∧ M) of five "for all" words
  have e := congrFun hpre ValueIdx.ix0
  unfold Cert.Pre_finite_inputs.fn Cert.Pre_finite_inputs.fn_part1 at e
  dsimp only at e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  -- a conjunction over all indices that is 1 is 1 at each index; then the entry's test is read back
  refine ⟨fun i => ?_, fun i => ?_, fun i => ?_, fun i => ?_, fun h i j hij => ?_⟩
  · exact finite_at _ x0 i (Host.reduce_andi_all _ _ _ _ _ h0 i)
  · exact finite_at _ x1 i (Host.reduce_andi_all _ _ _ _ _ h1 i)
  · exact finite_at _ x2 i (Host.reduce_andi_all _ _ _ _ _ h2 i)
  · exact finite_at _ x3 i (Host.reduce_andi_all _ _ _ _ _ h3 i)
  · exact zero_above_diag _ x3 h i j hij (Host.reduce_andi_all _ _ _ _ _ h4 _)

end Cert.PreFacts
-- ==== Proof.lean ====
/-
  The claim: a blocked retention kernel against its plain reference, over the extended reals.

  The kernel walks, for every head and every block of 512 rows, the blocks of 512 columns up to the row-block's own,
  keeping three running sums in scratch — O = ∑ (q·kᵀ ∘ mask)·v, P = the row sums of q·kᵀ ∘ mask, L = the row sums of the
  mask — and stores (O / L) / max(|P / L|, 1) when the column-block reaches the row-block. The reference divides q by
  the mask's full row sum first and sums over all 2048 columns. The precondition says that every input is finite and
  that the mask vanishes above the diagonal, so the column-blocks the kernel skips contribute nothing and the two
  row sums agree; where the row sum is not zero the two results are one real number by moving the division across
  the sums, and where it is zero both are zero.

  Frames: each kernel program's body is run symbolically once per setting of its three branch conditions, generic in
  the float instance, and launched over the grid with the running sums tracked point by point; the reference's frame is
  its generated run. The idealization rewrote nothing, so `preserves` is trivial.
-/
import proofs.«156671_j46643344835366_1_alg».proof.Defs
import proofs.«156671_j46643344835366_1_alg».proof.Proof.Gen.Kernel
import proofs.«156671_j46643344835366_1_alg».proof.Proof.Gen.KernelIdeal
import proofs.«156671_j46643344835366_1_alg».proof.Proof.Gen.ReferenceIdeal
import proofs.«156671_j46643344835366_1_alg».proof.Proof.Gen.Pre_finite_inputs
import proofs.«156671_j46643344835366_1_alg».proof.Proof.Gen.ReferenceIdeal.Run
import proofs.«156671_j46643344835366_1_alg».proof.Proof.Gen.ReferenceIdeal.Read
import proofs.«156671_j46643344835366_1_alg».proof.Proof.KFrame
import proofs.«156671_j46643344835366_1_alg».proof.Proof.KIFrame
import proofs.«156671_j46643344835366_1_alg».proof.Proof.KIRun
import proofs.«156671_j46643344835366_1_alg».proof.Proof.RefValue
import proofs.«156671_j46643344835366_1_alg».proof.Proof.PreFacts
import proofs.«156671_j46643344835366_1_alg».proof.Proof.Algebra
import Idealize.ShloMosaic.Adequacy
import Idealize.ShloMosaic.Init

set_option maxRecDepth 16384

noncomputable section

namespace Cert.Proof

open Idealize.ShloMosaic Idealize.ShloMosaic.ValueIdx Idealize.SL.Sem

theorem frame_p : Cert.frame_Kernel := fun m ρ _ => Cert.Kernel.Body.frame (F := Bits) m ρ
theorem frame_pi : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end with the result at `kerVal` resp. `refVal` of the argument arrays, which
    agree; the precondition gives finiteness and the vanishing of the mask above the diagonal, under which the two
    formulas are equal. -/
theorem algebraic : Cert.algebraic_KernelIdeal_ReferenceIdeal := by
  intro m ρ m' ρ' hpre hagree
  refine ⟨fun c => Cert.KernelIdeal.Val.G m c, Cert.KernelIdeal.Val.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2]
  obtain ⟨h0, h1, h2, h3, hc⟩ := Cert.PreFacts.decode _ _ _ _ (hpre c)
  funext j
  obtain ⟨b, h, i, d, rfl⟩ : ∃ (b : Fin 2) (h : Fin 16) (i : Fin 2048) (d : Fin 128), j = ix4 b h i d :=
    ⟨j 0, j 1, j 2, j 3, eq_ix4 j⟩
  rw [Cert.RefValue.ref_is_spec]
  exact (Cert.Spec.ker_eq_ref _ _ _ _ (fun b h i d => h0 _) (fun b h i d => h1 _) (fun b h i d => h2 _) (fun h i j => h3 _) hc _ _ _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
